-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x1024 : Shape := ⟨3, ![32, 128, 1024]⟩
abbrev S1024x1024 : Shape := ⟨2, ![1024, 1024]⟩
abbrev S1024 : Shape := ⟨1, ![1024]⟩
abbrev S_ : Shape := ⟨0, ![]⟩

class Facts : Prop where
  bcast_S_S32x128x1024 : S_.BroadcastsInDim S32x128x1024 (![] : Fin 0 → Fin S32x128x1024.rank)
  reducesTo_S32x128x1024_S_d0_1_2 : S32x128x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S32x128x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S32x128x1024 .f32 := Host.absf main_arg0
  let main_cst : FVec F S_ .f32 := constant S_ .f32 0x7F800000#32
  let main_v1 : FVec F S32x128x1024 .f32 := broadcastInDim S32x128x1024 ![] bcast_S_S32x128x1024 main_cst
  let main_v2 : IVec S32x128x1024 1 := cmpf .olt main_v0 main_v1
  let main_c : IVec S_ 1 := constantI S_ 1 1#1
  let main_v3 : IVec S_ 1 := (fun x v => Host.reduce IntOp.andi x v reducesTo_S32x128x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S32x128x1024 : Shape := ⟨3, ![32, 128, 1024]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩

abbrev nBuf : Space → Nat
  | .hbm => 20
  | .vmem => 12
  | .smem => 0
  | _ => 0

abbrev bufTy : (tb : Table) → Fin (tcTables nBuf tb) → BufTy
  | .hbm, ⟨0, _⟩ => ⟨S32x128x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4096x1024, .f32⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S4096x1024, .f32⟩
  | .hbm, ⟨19, _⟩ => ⟨S32x128x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S32x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S32x128x1024_S4096x1024 : S32x128x1024.ShapeCasts S4096x1024
  bitsLt_bf16_f32 : FTy.bits .bf16 < FTy.bits .f32
  shapeCasts_S1024_S1x1024 : S1024.ShapeCasts S1x1024
  inb_S1024x1024_S512x1024_0_0 : ∀ a, (![0, 0] : Fin 2 → Nat) a + S512x1024.size a ≤ S1024x1024.size a
  h_S512x1024 : 0 < S512x1024.numel
  shapeCasts_S512x1024_S512x1024 : S512x1024.ShapeCasts S512x1024
  inb_S1024x1024_S512x1024_512_0 : ∀ a, (![512, 0] : Fin 2 → Nat) a + S512x1024.size a ≤ S1024x1024.size a
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S32x128x1024 : S4096x1024.ShapeCasts S32x128x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S4096x1024.size a
  hwx0_9 : ∀ i : grid0.Coords, EltTy.bits .f32 = 32 ∨ (Rect.block (s := S4096x1024) S1024x1024.size (cc0_transform_9 i) (hinb0_9 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1024x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32x128x1024 : Shape := ⟨3, ![32, 128, 1024]⟩
abbrev S1024x1024 : Shape := ⟨2, ![1024, 1024]⟩
abbrev S1024 : Shape := ⟨1, ![1024]⟩
abbrev S0 : Shape := ⟨1, ![0]⟩
abbrev S4096x1024 : Shape := ⟨2, ![4096, 1024]⟩
abbrev S_ : Shape := ⟨0, ![]⟩
abbrev S4x1024x1024 : Shape := ⟨3, ![4, 1024, 1024]⟩
abbrev S4x1x1024 : Shape := ⟨3, ![4, 1, 1024]⟩
abbrev S1 : Shape := ⟨1, ![1]⟩
abbrev S2 : Shape := ⟨1, ![2]⟩
abbrev S256x1024 : Shape := ⟨2, ![256, 1024]⟩
abbrev S1x1024x1024 : Shape := ⟨3, ![1, 1024, 1024]⟩
abbrev S1x1x1024 : Shape := ⟨3, ![1, 1, 1024]⟩
abbrev S1x1024 : Shape := ⟨2, ![1, 1024]⟩

abbrev nBuf : Space → Nat
  | .hbm => 56
  | .vmem => 9
  | .smem => 0
  | _ => 0

abbrev bufTy : (tb : Table) → Fin (tcTables nBuf tb) → BufTy
  | .hbm, ⟨0, _⟩ => ⟨S32x128x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S0, .i32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4x1024x1024, .f32⟩
  | .hbm, ⟨16, _⟩ => ⟨S_, .f32⟩
  | .hbm, ⟨17, _⟩ => ⟨S4x1x1024, .f32⟩
  | .hbm, ⟨18, _⟩ => ⟨S_, .i32⟩
  | .hbm, ⟨19, _⟩ => ⟨S1, .i32⟩
  | .hbm, ⟨20, _⟩ => ⟨S4x1024x1024, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S4x1x1024, .f32⟩
  | .hbm, ⟨27, _⟩ => ⟨S_, .i32⟩
  | .hbm, ⟨28, _⟩ => ⟨S1, .i32⟩
  | .hbm, ⟨29, _⟩ => ⟨S4x1024x1024, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S4x1x1024, .f32⟩
  | .hbm, ⟨36, _⟩ => ⟨S_, .i32⟩
  | .hbm, ⟨37, _⟩ => ⟨S1, .i32⟩
  | .hbm, ⟨38, _⟩ => ⟨S4x1024x1024, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S4x1x1024, .f32⟩
  | .hbm, ⟨45, _⟩ => ⟨S_, .i32⟩
  | .hbm, ⟨46, _⟩ => ⟨S1, .i32⟩
  | .hbm, ⟨47, _⟩ => ⟨S4x1024x1024, .f32⟩
  | .hbm, ⟨48, _⟩ => ⟨S_, .i32⟩
  | .hbm, ⟨49, _⟩ => ⟨S1, .i32⟩
  | .hbm, ⟨50, _⟩ => ⟨S_, .i32⟩
  | .hbm, ⟨51, _⟩ => ⟨S1, .i32⟩
  | .hbm, ⟨52, _⟩ => ⟨S2, .i32⟩
  | .hbm, ⟨53, _⟩ => ⟨S4x1x1024, .f32⟩
  | .hbm, ⟨54, _⟩ => ⟨S4096x1024, .f32⟩
  | .hbm, ⟨55, _⟩ => ⟨S32x128x1024, .f32⟩
  | .local _ .vmem, ⟨0, _⟩ => ⟨S256x1024, .f32⟩
  | .local _ .vmem, ⟨1, _⟩ => ⟨S256x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S32x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_c_2 : Ref sig .tc := ⟨.hbm, 18, rfl⟩
abbrev main_v5 : Ref sig .tc := ⟨.hbm, 19, rfl⟩
abbrev main_v6 : Ref sig .tc := ⟨.hbm, 20, rfl⟩
abbrev main_c_3 : Ref sig .tc := ⟨.hbm, 21, rfl⟩
abbrev main_v7 : Ref sig .tc := ⟨.hbm, 22, rfl⟩
abbrev main_c_4 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_5 : Ref sig .tc := ⟨.hbm, 27, rfl⟩
abbrev main_v11 : Ref sig .tc := ⟨.hbm, 28, rfl⟩
abbrev main_v12 : Ref sig .tc := ⟨.hbm, 29, rfl⟩
abbrev main_c_6 : Ref sig .tc := ⟨.hbm, 30, rfl⟩
abbrev main_v13 : Ref sig .tc := ⟨.hbm, 31, rfl⟩
abbrev main_c_7 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_8 : Ref sig .tc := ⟨.hbm, 36, rfl⟩
abbrev main_v17 : Ref sig .tc := ⟨.hbm, 37, rfl⟩
abbrev main_v18 : Ref sig .tc := ⟨.hbm, 38, rfl⟩
abbrev main_c_9 : Ref sig .tc := ⟨.hbm, 39, rfl⟩
abbrev main_v19 : Ref sig .tc := ⟨.hbm, 40, rfl⟩
abbrev main_c_10 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_11 : Ref sig .tc := ⟨.hbm, 45, rfl⟩
abbrev main_v23 : Ref sig .tc := ⟨.hbm, 46, rfl⟩
abbrev main_v24 : Ref sig .tc := ⟨.hbm, 47, rfl⟩
abbrev main_c_12 : Ref sig .tc := ⟨.hbm, 48, rfl⟩
abbrev main_v25 : Ref sig .tc := ⟨.hbm, 49, rfl⟩
abbrev main_c_13 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32_10 : BitVec 32 := 3#32
  let v16 : BitVec 1 := Scalar.cmpi .eq arg1 c3_i32_10
  let v17 : BitVec 32 := Scalar.extui v16
  let c0_i32_11 : BitVec 32 := 0#32
  let v18 : BitVec 1 := Scalar.cmpi .ne v17 c0_i32_11
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  hz_S0 : S0.numel = 0
  shapeCasts_S32x128x1024_S4096x1024 : S32x128x1024.ShapeCasts S4096x1024
  bcast_S_S4096x1024 : S_.BroadcastsInDim S4096x1024 (![] : Fin 0 → Fin S4096x1024.rank)
  bcast_S_S4x1024x1024 : S_.BroadcastsInDim S4x1024x1024 (![] : Fin 0 → Fin S4x1024x1024.rank)
  bcast_S_S4x1x1024 : S_.BroadcastsInDim S4x1x1024 (![] : Fin 0 → Fin S4x1x1024.rank)
  bcast_S_S1 : S_.BroadcastsInDim S1 (![] : Fin 0 → Fin S1.rank)
  concatenates_S1_S1_S2_d0 : Shape.Concatenates [S1, S1] S2 0
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S256x1024 : S1x1024.Broadcasts S256x1024
  shapeCasts_S4096x1024_S32x128x1024 : S4096x1024.ShapeCasts S32x128x1024
  scatter_S4096x1024_S0_S4096x1024_01_n_n_0_wf : ScatterDims.WF S4096x1024 S0 S4096x1024 [0, 1] [] [] 0
  scatter_S4x1024x1024_S1_S1024x1024_01_0_0_0_wf : ScatterDims.WF S4x1024x1024 S1 S1024x1024 [0, 1] [0] [0] 0
  scatter_S4x1x1024_S2_S1024_0_01_01_0_wf : ScatterDims.WF S4x1x1024 S2 S1024 [0] [0, 1] [0, 1] 0
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S4x1024x1024.size a
  hwx0_1 : ∀ i : grid0.Coords, EltTy.bits .f32 = 32 ∨ (Rect.block (s := S4x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S4x1x1024.size a
  hwx0_2 : ∀ i : grid0.Coords, EltTy.bits .f32 = 32 ∨ (Rect.block (s := S4x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S4096x1024.size a
  hwx0_3 : ∀ i : grid0.Coords, EltTy.bits .f32 = 32 ∨ (Rect.block (s := S4096x1024) S256x1024.size (cc0_transform_3 i) (hinb0_3 i)).WholeWords (EltTy.packing .f32)

variable [Facts₀]

def scatter_S4096x1024_S0_S4096x1024_01_n_n_0 : ScatterDims S4096x1024 S0 S4096x1024 where
  updateWindowDims := [0, 1]
  insertedWindowDims := []
  scatterDimsToOperandDims := []
  indexVectorDim := 0
  wf := scatter_S4096x1024_S0_S4096x1024_01_n_n_0_wf
def scatter_S4x1024x1024_S1_S1024x1024_01_0_0_0 : ScatterDims S4x1024x1024 S1 S1024x1024 where
  updateWindowDims := [0, 1]
  insertedWindowDims := [0]
  scatterDimsToOperandDims := [0]
  indexVectorDim := 0
  wf := scatter_S4x1024x1024_S1_S1024x1024_01_0_0_0_wf
def scatter_S4x1x1024_S2_S1024_0_01_01_0 : ScatterDims S4x1x1024 S2 S1024 where
  updateWindowDims := [0]
  insertedWindowDims := [0, 1]
  scatterDimsToOperandDims := [0, 1]
  indexVectorDim := 0
  wf := scatter_S4x1x1024_S2_S1024_0_01_01_0_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v2) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== Proof.Spec.lean ====
/-
  The function both programs compute, on the extended reals: four dense layers with a rectifier.

  One layer sends a row `h` of 1024 entries, a weight matrix `w` of 1024 × 1024 entries and a bias `b` of 1024
  entries to the row `q ↦ max (∑ k, h k * w (k, q) + b q) 0`.  The network applies four layers, one after the
  other, to each of the 4096 rows of the input read as a 4096 × 1024 matrix (row `r` of the matrix is entry
  `(r / 128, r % 128)` of the 32 × 128 × 1024 input), and the result is read back as a 32 × 128 × 1024 array.
  Every row is treated by itself, so the result on a block of rows is the network applied to those rows.
-/
import Idealize.ShloMosaic.PureOps.Ideal
import Idealize.ShloMosaic.Lib.ValueIdx

noncomputable section

namespace Cert.Spec

open Idealize.ShloMosaic Idealize.ShloMosaic.ValueIdx

/-- The shapes the network is stated over. -/
abbrev SX : Shape := ⟨3, ![32, 128, 1024]⟩
abbrev SM : Shape := ⟨2, ![4096, 1024]⟩
abbrev SW : Shape := ⟨2, ![1024, 1024]⟩
abbrev SB : Shape := ⟨1, ![1024]⟩

/-- One dense layer with its rectifier on one row. -/
def rowLayer (h : Fin 1024 → EReal) (w : SW.Idx → EReal) (b : SB.Idx → EReal) : Fin 1024 → EReal :=
  fun q => max ((∑ k : Fin 1024, h k * w (ix2 k q)) + b (ix1 q)) 0

/-- The four layers on one row. -/
def rowMlp (x : Fin 1024 → EReal) (w0 : SW.Idx → EReal) (b0 : SB.Idx → EReal) (w1 : SW.Idx → EReal) (b1 : SB.Idx → EReal)
    (w2 : SW.Idx → EReal) (b2 : SB.Idx → EReal) (w3 : SW.Idx → EReal) (b3 : SB.Idx → EReal) : Fin 1024 → EReal :=
  rowLayer (rowLayer (rowLayer (rowLayer x w0 b0) w1 b1) w2 b2) w3 b3

/-- The network on the 4096 × 1024 matrix of rows: entry `(r, q)` is entry `q` of the network on row `r`. -/
def mlpRows (X : SM.Idx → EReal) (w0 : SW.Idx → EReal) (b0 : SB.Idx → EReal) (w1 : SW.Idx → EReal) (b1 : SB.Idx → EReal)
    (w2 : SW.Idx → EReal) (b2 : SB.Idx → EReal) (w3 : SW.Idx → EReal) (b3 : SB.Idx → EReal) : SM.Idx → EReal :=
  fun j => rowMlp (fun k => X (ix2 (j 0) k)) w0 b0 w1 b1 w2 b2 w3 b3 (j 1)

theorem mlpRows_apply (X : SM.Idx → EReal) (w0 : SW.Idx → EReal) (b0 : SB.Idx → EReal) (w1 : SW.Idx → EReal) (b1 : SB.Idx → EReal)
    (w2 : SW.Idx → EReal) (b2 : SB.Idx → EReal) (w3 : SW.Idx → EReal) (b3 : SB.Idx → EReal) (r : Fin 4096) (q : Fin 1024) :
    mlpRows X w0 b0 w1 b1 w2 b2 w3 b3 (ix2 r q) = rowMlp (fun k => X (ix2 r k)) w0 b0 w1 b1 w2 b2 w3 b3 q := rfl

/-- The network on the 32 × 128 × 1024 input: the input read as 4096 rows, the network on the rows, the result read
    back in the input's shape. -/
def mlp (h₁ : SX.ShapeCasts SM) (h₂ : SM.ShapeCasts SX) (x : SX.Idx → EReal) (w0 : SW.Idx → EReal) (b0 : SB.Idx → EReal)
    (w1 : SW.Idx → EReal) (b1 : SB.Idx → EReal) (w2 : SW.Idx → EReal) (b2 : SB.Idx → EReal) (w3 : SW.Idx → EReal)
    (b3 : SB.Idx → EReal) : SX.Idx → EReal :=
  shapeCast SX (mlpRows (shapeCast SM x h₁) w0 b0 w1 b1 w2 b2 w3 b3) h₂

end Cert.Spec

end
-- ==== Proof.LibMatmulAt.lean ====
/-
  A plain matrix product read at an element.

  A contraction whose dimension numbers are those of an [R, K] × [K, C] matrix product (the left operand contracted on
  its axis 1, the right on its axis 0, no batch axis), accumulated into the zero splat, read at the element (p, q) is
  ∑ k, l(p, k) * r(k, q) over the extended reals. The statement is over ANY record of dimension numbers with those six
  lists, so that it applies to every record of that kind a program names, whatever its extents.
-/
import Idealize.ShloMosaic.PureOps.Ideal.Laws
import Idealize.ShloMosaic.Lib.ValueIdx

noncomputable section

namespace Cert.LibMatmulAt

open Idealize.ShloMosaic Idealize.ShloMosaic.ValueIdx

/-- The dimension numbers of an [R, K] × [K, C] matrix product, with its well-formedness proof a variable: every record
    with those six lists is this one. -/
abbrev plainOf {R K C : ℕ}
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ :=
  ⟨[1], [0], [0], [1], [], [], wf⟩

/-- The sum over the one-axis contraction index, re-indexed by that axis's coordinate, reads the left operand at (p, k)
    and the right operand at (k, q). -/
theorem plainOf_sum {R K C : ℕ} (wf : DotDims.WF ⟨2, ![R, K]⟩ ⟨2, ![K, C]⟩ ⟨2, ![R, C]⟩ [1] [0] [0] [1] [] [])
    (l : (⟨2, ![R, K]⟩ : Shape).Idx → EReal) (r : (⟨2, ![K, C]⟩ : Shape).Idx → EReal) (p : Fin R) (q : Fin C) :
    (∑ k : (plainOf wf).contr.Idx, l ((plainOf wf).lhsIdx (ix2 p q) k) * r ((plainOf wf).rhsIdx (ix2 p q) k))
      = ∑ k : Fin K, l (ix2 p k) * r (ix2 k q) := by
  have l0 : ∀ kk : (plainOf wf).contr.Idx, ((plainOf wf).lhsIdx (ix2 p q) kk 0).val = p.val := fun kk => by
    unfold DotDims.lhsIdx
    rw [dif_neg (show ¬(0 : Fin (⟨2, ![R, K]⟩ : Shape).rank) ∈ (plainOf wf).lhsBatch from List.not_mem_nil),
      dif_pos (show (0 : Fin (⟨2, ![R, K]⟩ : Shape).rank) ∈ (plainOf wf).lhsNonContracting from List.mem_singleton.mpr rfl)]
    rfl
  have r1 : ∀ kk : (plainOf wf).contr.Idx, ((plainOf wf).rhsIdx (ix2 p q) kk 1).val = q.val := fun kk => by
    unfold DotDims.rhsIdx
    rw [dif_neg (show ¬(1 : Fin (⟨2, ![K, C]⟩ : Shape).rank) ∈ (plainOf wf).rhsBatch from List.not_mem_nil),
      dif_pos (show (1 : Fin (⟨2, ![K, C]⟩ : Shape).rank) ∈ (plainOf wf).rhsNonContracting from List.mem_singleton.mpr rfl)]
    rfl
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 p q) ((contrEquiv1 (plainOf wf) K rfl rfl).symm k) = ix2 p k :=
    funext fun a => Fin.ext (by
      match a with
      | ⟨0, _⟩ => exact l0 _
      | ⟨1, _⟩ => exact ((plainOf wf).lhsIdx_val_of_single rfl _ _).trans hk)
  have er : (plainOf wf).rhsIdx (ix2 p q) ((contrEquiv1 (plainOf wf) K rfl rfl).symm k) = ix2 k q :=
    funext fun a => Fin.ext (by
      match a with
      | ⟨0, _⟩ => exact ((plainOf wf).rhsIdx_val_of_single rfl _ _).trans hk
      | ⟨1, _⟩ => exact r1 _)
  rw [el, er]

/-- A matrix product into the zero accumulator, for any record of dimension numbers with the six lists of an
    [R, K] × [K, C] product, read at (p, q): the sum over k of the left operand at (p, k) times the right at (k, q). -/
theorem matmul_zero_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    matmul D prec l r (constant (F := Ideal) ⟨2, ![R, C]⟩ .f32 0x00000000#32) (ix2 p q)
      = ∑ k : Fin K, l (ix2 p k) * r (ix2 k q) := by
  obtain ⟨lc, rc, ln, rn, lb, rb, wf⟩ := D
  dsimp only at hlc hrc hln hrn hlb hrb
  subst hlc hrc hln hrn hlb hrb
  exact (Ideal.matmul_constant_zero_apply (plainOf wf) prec l r (ix2 p q)).trans (plainOf_sum wf l r p q)

end Cert.LibMatmulAt

end
-- ==== Proof.KernelLayer.lean ====
/-
  One dense layer of a block of 512 rows, read entry by entry.

  A block of 512 rows `h`, a 1024 × 1024 weight block `w` and a 1 × 1024 bias block `b` give the block whose entry
  `(p, q)` is `max (∑ k, h (p, k) * w (k, q) + b (0, q)) 0`: the dense layer of the specification applied to row `p`
  of `h`.  On the extended reals a change of float format is the identity, the product accumulates into zero, and the
  bias row is read at its one row, so each of the body's four layer computations is this block, whichever format its
  tail is written in.  The body's named pieces are then two layers each.
-/
import proofs.«158575_g2000405746462539_pallasbulk_774_7_alg».proof.Proof.Spec
import proofs.«158575_g2000405746462539_pallasbulk_774_7_alg».proof.Proof.LibMatmulAt
import proofs.«158575_g2000405746462539_pallasbulk_774_7_alg».proof.Proof.Gen.KernelIdeal.Skeleton
import Idealize.ShloMosaic.Lib.ValueLayout
import Idealize.ShloMosaic.Lib.IdealHost
import Idealize.ShloMosaic.Lib.Pipeline.Value

noncomputable section

namespace Cert.KernelSide

open Idealize.ShloMosaic Idealize.ShloMosaic.ValueIdx Cert.KernelIdeal Cert.KernelIdeal.Gen Cert.Spec

/-- A 1 × 1024 bias block read as a vector of 1024 entries: its one row. -/
def rowOf (b : S1x1024.Idx → EReal) : SB.Idx → EReal := fun i => b (ix2 (0 : Fin 1) (i 0))

/-- One dense layer on a block of 512 rows: row `p` of the result is the layer on row `p` of `h`. -/
def blockLayer (h : S512x1024.Idx → EReal) (w : S1024x1024.Idx → EReal) (b : S1x1024.Idx → EReal) : S512x1024.Idx → EReal :=
  fun j => rowLayer (fun k => h (ix2 (j 0) k)) w (rowOf b) (j 1)

theorem blockLayer_apply (h : S512x1024.Idx → EReal) (w : S1024x1024.Idx → EReal) (b : S1x1024.Idx → EReal) (p : Fin 512) (q : Fin 1024) :
    blockLayer h w b (ix2 p q) = max ((∑ k : Fin 1024, h (ix2 p k) * w (ix2 k q)) + b (ix2 (0 : Fin 1) q)) 0 := rfl

/-- The product of a block of rows with a weight block into the zero accumulator, plus the bias row stretched over the
    rows, at `(p, q)`. -/
theorem affine_apply {φ₁ φ₂ φ₃ : FTy} (h : FVec Ideal S512x1024 φ₁) (w : FVec Ideal S1024x1024 φ₂) (b : FVec Ideal S1x1024 φ₃)
    (p : Fin 512) (q : Fin 1024) :
    matmul dot_S512x1024_S1024x1024_S512x1024_1_0_0_1_n_n none h w (constant (F := Ideal) S512x1024 .f32 0x00000000#32) (ix2 p q)
        + broadcastTo S512x1024 b broadcasts_S1x1024_S512x1024 (ix2 p q)
      = (∑ k : Fin 1024, h (ix2 p k) * w (ix2 k q)) + b (ix2 (0 : Fin 1) q) := by
  rw [Cert.LibMatmulAt.matmul_zero_apply dot_S512x1024_S1024x1024_S512x1024_1_0_0_1_n_n rfl rfl rfl rfl rfl rfl none h w p q,
    broadcastTo_1b_ab_apply b broadcasts_S1x1024_S512x1024 p q]

/-- A layer of a block, whichever format its tail is written in: the product into the zero accumulator plus the
    stretched bias row, cut below at a zero `z`, is the dense layer on each row. -/
theorem layer_eq {φ₁ φ₂ φ₃ φ₄ : FTy} (h : FVec Ideal S512x1024 φ₁) (w : FVec Ideal S1024x1024 φ₂) (b : FVec Ideal S1x1024 φ₃)
    (z : Ideal φ₄) (hz : z = 0) :
    (fun j => max (matmul dot_S512x1024_S1024x1024_S512x1024_1_0_0_1_n_n none h w (constant (F := Ideal) S512x1024 .f32 0x00000000#32) j
        + broadcastTo S512x1024 b broadcasts_S1x1024_S512x1024 j) z) = blockLayer h w b := by
  funext j
  obtain ⟨p, q, rfl⟩ : ∃ (p : Fin 512) (q : Fin 1024), j = ix2 p q := ⟨j 0, j 1, eq_ix2 j⟩
  rw [affine_apply, blockLayer_apply, hz]

/-- The first two layers on the upper half of the block of rows. -/
theorem upper_first_two (v0 : Vec Ideal S512x1024 .f32) (v6 : Vec Ideal S1024x1024 .bf16) (v8 : Vec Ideal S1x1024 .f32)
    (v23 : Vec Ideal S1024x1024 .bf16) (v25 : Vec Ideal S1x1024 .f32) :
    k0_pay11 v0 v6 v8 v23 v25 = blockLayer (blockLayer v0 v6 v8) v23 v25 := by
  unfold k0_pay11 k0_pay7 k0_pay8 k0_pay9 k0_pay10
  simp only [shapeCast_self]
  exact (layer_eq (φ₁ := .bf16) (φ₂ := .bf16) (φ₃ := .bf16) (φ₄ := .bf16) _ v23 _ _ Ideal.ofBits_zero_bf16).trans
    (congrArg (fun h => blockLayer h v23 v25)
      (layer_eq (φ₁ := .bf16) (φ₂ := .bf16) (φ₃ := .bf16) (φ₄ := .bf16) v0 v6 _ _ Ideal.ofBits_zero_bf16))

/-- The first two layers on the lower half: the body leaves the second layer's cut at zero to the start of the next
    piece, where it is taken against the zero splat. -/
theorem lower_first_two (v3 : Vec Ideal S512x1024 .f32) (v6 : Vec Ideal S1024x1024 .bf16) (v8 : Vec Ideal S1x1024 .f32)
    (v23 : Vec Ideal S1024x1024 .bf16) (v25 : Vec Ideal S1x1024 .f32) :
    maximumf (k0_pay12 v3 v6 v8 v23 v25) (k0_pay13 (F := Ideal)) = blockLayer (blockLayer v3 v6 v8) v23 v25 := by
  unfold k0_pay12 k0_pay13 k0_pay7 k0_pay8 k0_pay9 k0_pay10
  simp only [shapeCast_self]
  exact (layer_eq (φ₁ := .bf16) (φ₂ := .bf16) (φ₃ := .bf16) (φ₄ := .bf16) _ v23 _ _ Ideal.ofBits_zero_bf16).trans
    (congrArg (fun h => blockLayer h v23 v25)
      (layer_eq (φ₁ := .bf16) (φ₂ := .bf16) (φ₃ := .bf16) (φ₄ := .bf16) v3 v6 _ _ Ideal.ofBits_zero_bf16))

/-- The last two layers on the upper half, from what the first two left. -/
theorem upper_last_two (v34 : FVec Ideal S512x1024 .bf16) (v40 : Vec Ideal S1024x1024 .bf16) (v42 : Vec Ideal S1x1024 .f32)
    (v57 : Vec Ideal S1024x1024 .bf16) (v59 : Vec Ideal S1x1024 .f32) :
    k0_pay5 v34 v40 v42 v57 v59 = blockLayer (blockLayer v34 v40 v42) v57 v59 := by
  unfold k0_pay5 k0_pay1 k0_pay2 k0_pay3 k0_pay4
  simp only [shapeCast_self]
  exact (layer_eq (φ₁ := .bf16) (φ₂ := .bf16) (φ₃ := .f32) (φ₄ := .f32) _ v57 _ _ Ideal.ofBits_zero_f32).trans
    (congrArg (fun h => blockLayer h v57 v59)
      (layer_eq (φ₁ := .bf16) (φ₂ := .bf16) (φ₃ := .bf16) (φ₄ := .bf16) v34 v40 _ _ Ideal.ofBits_zero_bf16))

/-- The last two layers on the lower half, from what the first two left before their cut at zero. -/
theorem lower_last_two (v37 v38 : FVec Ideal S512x1024 .bf16) (v40 : Vec Ideal S1024x1024 .bf16) (v42 : Vec Ideal S1x1024 .f32)
    (v57 : Vec Ideal S1024x1024 .bf16) (v59 : Vec Ideal S1x1024 .f32) :
    k0_pay6 v37 v38 v40 v42 v57 v59 = blockLayer (blockLayer (maximumf v37 v38) v40 v42) v57 v59 := by
  unfold k0_pay6 k0_pay1 k0_pay2 k0_pay3 k0_pay4
  simp only [shapeCast_self]
  exact (layer_eq (φ₁ := .bf16) (φ₂ := .bf16) (φ₃ := .f32) (φ₄ := .f32) _ v57 _ _ Ideal.ofBits_zero_f32).trans
    (congrArg (fun h => blockLayer h v57 v59)
      (layer_eq (φ₁ := .bf16) (φ₂ := .bf16) (φ₃ := .bf16) (φ₄ := .bf16) (maximumf v37 v38) v40 _ _ Ideal.ofBits_zero_bf16))

/-- The four layers on a block of 512 rows: row `p` of the result is the network on row `p` of `x`. -/
def blockMlp (x : S512x1024.Idx → EReal) (w0 : S1024x1024.Idx → EReal) (b0 : S1x1024.Idx → EReal) (w1 : S1024x1024.Idx → EReal)
    (b1 : S1x1024.Idx → EReal) (w2 : S1024x1024.Idx → EReal) (b2 : S1x1024.Idx → EReal) (w3 : S1024x1024.Idx → EReal)
    (b3 : S1x1024.Idx → EReal) : S512x1024.Idx → EReal :=
  blockLayer (blockLayer (blockLayer (blockLayer x w0 b0) w1 b1) w2 b2) w3 b3

theorem blockMlp_apply (x : S512x1024.Idx → EReal) (w0 : S1024x1024.Idx → EReal) (b0 : S1x1024.Idx → EReal) (w1 : S1024x1024.Idx → EReal)
    (b1 : S1x1024.Idx → EReal) (w2 : S1024x1024.Idx → EReal) (b2 : S1x1024.Idx → EReal) (w3 : S1024x1024.Idx → EReal)
    (b3 : S1x1024.Idx → EReal) (p : Fin 512) (q : Fin 1024) :
    blockMlp x w0 b0 w1 b1 w2 b2 w3 b3 (ix2 p q)
      = rowMlp (fun k => x (ix2 p k)) w0 (rowOf b0) w1 (rowOf b1) w2 (rowOf b2) w3 (rowOf b3) q := rfl

/-- What the body stores for the upper half of the block: the network on those rows. -/
theorem upper_piece (x : Vec Ideal S512x1024 .f32) (w0 : Vec Ideal S1024x1024 .bf16) (b0 : Vec Ideal S1x1024 .f32)
    (w1 : Vec Ideal S1024x1024 .bf16) (b1 : Vec Ideal S1x1024 .f32) (w2 : Vec Ideal S1024x1024 .bf16) (b2 : Vec Ideal S1x1024 .f32)
    (w3 : Vec Ideal S1024x1024 .bf16) (b3 : Vec Ideal S1x1024 .f32) :
    k0_pay5 (k0_pay11 x w0 b0 w1 b1) w2 b2 w3 b3 = blockMlp x w0 b0 w1 b1 w2 b2 w3 b3 := by
  rw [upper_last_two, upper_first_two]; rfl

/-- What the body stores for the lower half of the block: the network on those rows. -/
theorem lower_piece (x : Vec Ideal S512x1024 .f32) (w0 : Vec Ideal S1024x1024 .bf16) (b0 : Vec Ideal S1x1024 .f32)
    (w1 : Vec Ideal S1024x1024 .bf16) (b1 : Vec Ideal S1x1024 .f32) (w2 : Vec Ideal S1024x1024 .bf16) (b2 : Vec Ideal S1x1024 .f32)
    (w3 : Vec Ideal S1024x1024 .bf16) (b3 : Vec Ideal S1x1024 .f32) :
    k0_pay6 (k0_pay12 x w0 b0 w1 b1) (k0_pay13 (F := Ideal)) w2 b2 w3 b3 = blockMlp x w0 b0 w1 b1 w2 b2 w3 b3 := by
  rw [lower_last_two, lower_first_two]; rfl

end Cert.KernelSide

end
-- ==== Proof.KernelBlock.lean ====
/-
  What the body leaves in the output block, read entry by entry.

  The body stores the network on the upper 512 rows of the block of inputs at rows 0 … 511 of the output block and
  the network on the lower 512 rows at rows 512 … 1023.  Each row of the network depends on that row of the input
  alone, so the two stored halves are the two halves of ONE function of the block index: entry `(r, q)` of the output
  block is entry `q` of the network on row `r` of the input block.
-/
import proofs.«158575_g2000405746462539_pallasbulk_774_7_alg».proof.Proof.KernelLayer
import proofs.«158575_g2000405746462539_pallasbulk_774_7_alg».proof.Proof.Gen.KernelIdeal.Frame
import Idealize.ShloMosaic.Lib.Pipeline.Value

noncomputable section

namespace Cert.KernelSide

open Idealize.ShloMosaic Idealize.ShloMosaic.ValueIdx Cert.KernelIdeal Cert.KernelIdeal.Gen Cert.Spec

/-- The network on a block of 1024 rows: entry `(r, q)` is entry `q` of the network on row `r`. -/
def blockRows (X : S1024x1024.Idx → EReal) (w0 : S1024x1024.Idx → EReal) (b0 : S1x1024.Idx → EReal) (w1 : S1024x1024.Idx → EReal)
    (b1 : S1x1024.Idx → EReal) (w2 : S1024x1024.Idx → EReal) (b2 : S1x1024.Idx → EReal) (w3 : S1024x1024.Idx → EReal)
    (b3 : S1x1024.Idx → EReal) : S1024x1024.Idx → EReal :=
  fun j => rowMlp (fun k => X (ix2 (j 0) k)) w0 (rowOf b0) w1 (rowOf b1) w2 (rowOf b2) w3 (rowOf b3) (j 1)

theorem blockRows_apply (X : S1024x1024.Idx → EReal) (w0 : S1024x1024.Idx → EReal) (b0 : S1x1024.Idx → EReal) (w1 : S1024x1024.Idx → EReal)
    (b1 : S1x1024.Idx → EReal) (w2 : S1024x1024.Idx → EReal) (b2 : S1x1024.Idx → EReal) (w3 : S1024x1024.Idx → EReal)
    (b3 : S1x1024.Idx → EReal) (r : Fin 1024) (q : Fin 1024) :
    blockRows X w0 b0 w1 b1 w2 b2 w3 b3 (ix2 r q)
      = rowMlp (fun k => X (ix2 r k)) w0 (rowOf b0) w1 (rowOf b1) w2 (rowOf b2) w3 (rowOf b3) q := rfl

theorem zero_offsets : (![0, 0] : Fin 2 → Nat) = fun _ => 0 := funext fun a => by fin_cases a <;> rfl

/-- Entry `(p, q)` of the upper half sits at `(p, q)` of the block. -/
theorem upper_emb (p : Fin 512) (q : Fin 1024) :
    r0_0.emb (ix2 p q) = ix2 (⟨p.val, by omega⟩ : Fin 1024) q := by
  funext a; apply Fin.ext
  match a with
  | ⟨0, _⟩ => show 0 + 1 * p.val = p.val; omega
  | ⟨1, _⟩ => show 0 + 1 * q.val = q.val; omega

/-- Entry `(p, q)` of the lower half sits at `(512 + p, q)` of the block. -/
theorem lower_emb (p : Fin 512) (q : Fin 1024) :
    r0_1.emb (ix2 p q) = ix2 (⟨512 + p.val, by omega⟩ : Fin 1024) q := by
  funext a; apply Fin.ext
  match a with
  | ⟨0, _⟩ => show 512 + 1 * p.val = 512 + p.val; omega
  | ⟨1, _⟩ => show 0 + 1 * q.val = q.val; omega

/-- The upper stored half is the upper half of `blockRows`. -/
theorem upper_stored (x0 : Vec Ideal S1024x1024 .f32) (x1 x2 x3 x4 : Vec Ideal S1024x1024 .bf16) (x5 x6 x7 x8 : Vec Ideal S1x1024 .f32)
    (x : S512x1024.Idx) :
    k0_pay5 (k0_pay11 (View.ld x0 r0_0) (View.ld x1 r0_2) (View.ld x5 r0_3) (View.ld x2 r0_2) (View.ld x6 r0_3))
        (View.ld x3 r0_2) (View.ld x7 r0_3) (View.ld x4 r0_2) (View.ld x8 r0_3) x
      = blockRows x0 x1 x5 x2 x6 x3 x7 x4 x8 (r0_0.emb x) := by
  obtain ⟨p, q, rfl⟩ : ∃ (p : Fin 512) (q : Fin 1024), x = ix2 p q := ⟨x 0, x 1, eq_ix2 x⟩
  rw [upper_piece, blockMlp_apply, upper_emb, blockRows_apply]
  simp only [View.ld_unit_zero (S := S1024x1024) zero_offsets, View.ld_unit_zero (S := S1x1024) zero_offsets]
  exact congrArg (fun f => rowMlp f x1 (rowOf x5) x2 (rowOf x6) x3 (rowOf x7) x4 (rowOf x8) q)
    (funext fun k => congrArg x0 (upper_emb p k))

/-- The lower stored half is the lower half of `blockRows`. -/
theorem lower_stored (x0 : Vec Ideal S1024x1024 .f32) (x1 x2 x3 x4 : Vec Ideal S1024x1024 .bf16) (x5 x6 x7 x8 : Vec Ideal S1x1024 .f32)
    (x : S512x1024.Idx) :
    k0_pay6 (k0_pay12 (View.ld x0 r0_1) (View.ld x1 r0_2) (View.ld x5 r0_3) (View.ld x2 r0_2) (View.ld x6 r0_3)) (k0_pay13 (F := Ideal))
        (View.ld x3 r0_2) (View.ld x7 r0_3) (View.ld x4 r0_2) (View.ld x8 r0_3) x
      = blockRows x0 x1 x5 x2 x6 x3 x7 x4 x8 (r0_1.emb x) := by
  obtain ⟨p, q, rfl⟩ : ∃ (p : Fin 512) (q : Fin 1024), x = ix2 p q := ⟨x 0, x 1, eq_ix2 x⟩
  rw [lower_piece, blockMlp_apply, lower_emb, blockRows_apply]
  simp only [View.ld_unit_zero (S := S1024x1024) zero_offsets, View.ld_unit_zero (S := S1x1024) zero_offsets]
  exact congrArg (fun f => rowMlp f x1 (rowOf x5) x2 (rowOf x6) x3 (rowOf x7) x4 (rowOf x8) q)
    (funext fun k => congrArg x0 (lower_emb p k))

/-- What the body leaves in the output block: the network on each row of the input block. -/
theorem out_block (x0 : Vec Ideal S1024x1024 .f32) (x1 x2 x3 x4 : Vec Ideal S1024x1024 .bf16) (x5 x6 x7 x8 : Vec Ideal S1x1024 .f32) :
    out0_9 x0 x1 x2 x3 x4 x5 x6 x7 x8 = blockRows x0 x1 x5 x2 x6 x3 x7 x4 x8 := by
  funext y
  unfold out0_9
  refine View.canon_apply_of_pieces (Val := Elt Ideal) (e := .f32) (blockRows x0 x1 x5 x2 x6 x3 x7 x4 x8) _ ?_ y (cover0_9 _ _ y)
  intro pc hpc x
  simp only [List.mem_cons, List.mem_nil_iff, or_false] at hpc
  rcases hpc with rfl | rfl
  · exact lower_stored x0 x1 x2 x3 x4 x5 x6 x7 x8 x
  · exact upper_stored x0 x1 x2 x3 x4 x5 x6 x7 x8 x

end Cert.KernelSide

end
-- ==== Proof.KernelArrays.lean ====
/-
  What the region finds in the arrays its windows stage.

  Before the region the host reads the input as a 4096 × 1024 matrix of rows, makes a narrow-format copy of each weight
  matrix, and reads each bias as a 1 × 1024 row.  On the extended reals a change of format is the identity, so the
  copy of a weight matrix is the matrix, and the one row of the reshaped bias is the bias.
-/
import proofs.«158575_g2000405746462539_pallasbulk_774_7_alg».proof.Proof.KernelLayer
import proofs.«158575_g2000405746462539_pallasbulk_774_7_alg».proof.Proof.Gen.KernelIdeal.Frame
import Idealize.ShloMosaic.Lib.ValueLayout

noncomputable section

namespace Cert.KernelSide

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ)

/-- The one row of a bias read as a 1 × 1024 block is the bias. -/
theorem rowOf_cast (b : S1024.Idx → EReal) (h : S1024.ShapeCasts S1x1024) : rowOf (shapeCast S1x1024 b h) = b := by
  funext i
  obtain ⟨q, rfl⟩ : ∃ q : Fin 1024, i = ix1 q := ⟨i 0, eq_ix1 i⟩
  exact shapeCast_a_1a_apply b h (0 : Fin 1) q

/-- The matrix of rows the region finds: the input read as 4096 rows. -/
theorem rows_found (c : Dev nD) :
    (V m c main_v0 : S4096x1024.Idx → EReal)
      = shapeCast S4096x1024 (m ((c : Thread nD τ).loc main_arg0)) shapeCasts_S32x128x1024_S4096x1024 := by
  show StableHlo.after hostOps0 (fun b => m (c, b)) (Proc.devRef .tc main_v0) = _
  after_results
  rfl

/-- The four weight matrices the region finds are the arguments. -/
theorem w0_found (c : Dev nD) : (V m c main_v1 : S1024x1024.Idx → EReal) = m ((c : Thread nD τ).loc main_arg1) := by
  show StableHlo.after hostOps0 (fun b => m (c, b)) (Proc.devRef .tc main_v1) = _
  after_results
  rfl
theorem w1_found (c : Dev nD) : (V m c main_v2 : S1024x1024.Idx → EReal) = m ((c : Thread nD τ).loc main_arg3) := by
  show StableHlo.after hostOps0 (fun b => m (c, b)) (Proc.devRef .tc main_v2) = _
  after_results
  rfl
theorem w2_found (c : Dev nD) : (V m c main_v3 : S1024x1024.Idx → EReal) = m ((c : Thread nD τ).loc main_arg5) := by
  show StableHlo.after hostOps0 (fun b => m (c, b)) (Proc.devRef .tc main_v3) = _
  after_results
  rfl
theorem w3_found (c : Dev nD) : (V m c main_v4 : S1024x1024.Idx → EReal) = m ((c : Thread nD τ).loc main_arg7) := by
  show StableHlo.after hostOps0 (fun b => m (c, b)) (Proc.devRef .tc main_v4) = _
  after_results
  rfl

/-- The four bias rows the region finds are the arguments read as rows. -/
theorem b0_found (c : Dev nD) :
    (V m c main_v5 : S1x1024.Idx → EReal) = shapeCast S1x1024 (m ((c : Thread nD τ).loc main_arg2)) shapeCasts_S1024_S1x1024 := by
  show StableHlo.after hostOps0 (fun b => m (c, b)) (Proc.devRef .tc main_v5) = _
  after_results
  rfl
theorem b1_found (c : Dev nD) :
    (V m c main_v6 : S1x1024.Idx → EReal) = shapeCast S1x1024 (m ((c : Thread nD τ).loc main_arg4)) shapeCasts_S1024_S1x1024 := by
  show StableHlo.after hostOps0 (fun b => m (c, b)) (Proc.devRef .tc main_v6) = _
  after_results
  rfl
theorem b2_found (c : Dev nD) :
    (V m c main_v7 : S1x1024.Idx → EReal) = shapeCast S1x1024 (m ((c : Thread nD τ).loc main_arg6)) shapeCasts_S1024_S1x1024 := by
  show StableHlo.after hostOps0 (fun b => m (c, b)) (Proc.devRef .tc main_v7) = _
  after_results
  rfl
theorem b3_found (c : Dev nD) :
    (V m c main_v8 : S1x1024.Idx → EReal) = shapeCast S1x1024 (m ((c : Thread nD τ).loc main_arg8)) shapeCasts_S1024_S1x1024 := by
  show StableHlo.after hostOps0 (fun b => m (c, b)) (Proc.devRef .tc main_v8) = _
  after_results
  rfl

end Cert.KernelSide

end
-- ==== Proof.KernelValue.lean ====
/-
  The idealized kernel's run, read: the result is the network on the input.

  The grid has four points; point `t` stages rows 1024 t … 1024 t + 1023 of the matrix of rows together with the whole of
  each weight matrix and bias row, and writes back those rows of the output matrix.  What it writes back is the network on
  each staged row, and a row of the network depends on that row of the input alone, so every point writes back its rows
  of ONE matrix: the network on the rows of the input.  The four row blocks cover the output matrix, which therefore ends
  holding that matrix; the host reads it back in the input's shape.
-/
import proofs.«158575_g2000405746462539_pallasbulk_774_7_alg».proof.Proof.KernelBlock
import proofs.«158575_g2000405746462539_pallasbulk_774_7_alg».proof.Proof.KernelArrays
import Idealize.ShloMosaic.Lib.Pipeline.Value

noncomputable section

namespace Cert.KernelSide

open Idealize.ShloMosaic Idealize.ShloMosaic.TcCoe Idealize.ShloMosaic.ValueIdx Idealize.SL.Sem
open Idealize.ShloMosaic.Pipeline (Dat)
open Cert.KernelIdeal Cert.KernelIdeal.Gen Cert.Spec

variable (m : (ℓ : Loc nD τ sig) → Buf (Elt Ideal) ℓ) (ρ : Dev nD → PrngReg)

/-- The block index maps over the four grid points: the input rows move with the output rows, block `t` at point
    `t`; every other window stays at its one block. -/
theorem block_indices : ∀ t : Fin cfg0.N,
    win0_0.index t (0 : Fin 2) = win0_9.index t (0 : Fin 2) ∧ win0_0.index t (1 : Fin 2) = 0
    ∧ win0_9.index t (1 : Fin 2) = 0 ∧ win0_9.index t (0 : Fin 2) = t.val
    ∧ (∀ a : Fin 2, win0_1.index t a = 0) ∧ (∀ a : Fin 2, win0_2.index t a = 0) ∧ (∀ a : Fin 2, win0_3.index t a = 0)
    ∧ (∀ a : Fin 2, win0_4.index t a = 0) ∧ (∀ a : Fin 2, win0_5.index t a = 0) ∧ (∀ a : Fin 2, win0_6.index t a = 0)
    ∧ (∀ a : Fin 2, win0_7.index t a = 0) ∧ (∀ a : Fin 2, win0_8.index t a = 0) :=
  (by decide +kernel : ∀ t : Fin grid0.N, _)

/-- The matrix the output array ends holding: the network on the rows the region finds, with the weights and bias rows
    it finds. -/
def rowsOut (c : Dev nD) : S4096x1024.Idx → EReal :=
  mlpRows (V m c main_v0) (V m c main_v1) (rowOf (V m c main_v5)) (V m c main_v2) (rowOf (V m c main_v6))
    (V m c main_v3) (rowOf (V m c main_v7)) (V m c main_v4) (rowOf (V m c main_v8))

/-- An entry of a block of the network: if the staged rows are rows of the matrix `X` and the staged weights and bias
    rows are the whole arrays, entry `y` of the block is the entry of the network on `X` at the row `y`'s row is
    staged from and at `y`'s column. -/
theorem block_is_rows (X : S4096x1024.Idx → EReal) (W0 W1 W2 W3 : S1024x1024.Idx → EReal) (B0 B1 B2 B3 : S1x1024.Idx → EReal)
    (xb : S1024x1024.Idx → EReal) (w0 w1 w2 w3 : S1024x1024.Idx → EReal) (b0 b1 b2 b3 : S1x1024.Idx → EReal)
    (y : S1024x1024.Idx) (i : S4096x1024.Idx)
    (hx : ∀ k : Fin 1024, xb (ix2 (y 0) k) = X (ix2 (i 0) k)) (hq : (i 1).val = (y 1).val)
    (hw0 : w0 = W0) (hw1 : w1 = W1) (hw2 : w2 = W2) (hw3 : w3 = W3)
    (hb0 : b0 = B0) (hb1 : b1 = B1) (hb2 : b2 = B2) (hb3 : b3 = B3) :
    blockRows xb w0 b0 w1 b1 w2 b2 w3 b3 y
      = mlpRows X W0 (rowOf B0) W1 (rowOf B1) W2 (rowOf B2) W3 (rowOf B3) i := by
  subst hw0 hw1 hw2 hw3 hb0 hb1 hb2 hb3
  have hq' : y 1 = i 1 := Fin.ext hq.symm
  exact (congrArg (fun f => rowMlp f w0 (rowOf b0) w1 (rowOf b1) w2 (rowOf b2) w3 (rowOf b3) (y 1)) (funext hx)).trans
    (congrArg (rowMlp (fun k => X (ix2 (i 0) k)) w0 (rowOf b0) w1 (rowOf b1) w2 (rowOf b2) w3 (rowOf b3)) hq')

/-! The block of a weight matrix or of a bias row staged at any point is the whole array. -/

theorem w0_block (c : Dev nD) (t : Fin cfg0.N) :
    (iblk m c 1 t : S1024x1024.Idx → EReal) = (V m c main_v1 : S1024x1024.Idx → EReal) := by
  have h := (block_indices t).2.2.2.2.1
  funext z
  show V m c main_v1 (((cfg0.win 1).blk t).view.emb z) = V m c main_v1 z
  have e : ((cfg0.win 1).blk t).view.emb z = z := by
    funext a; apply Fin.ext
    match a with
    | ⟨0, _⟩ => show win0_1.index t (0 : Fin 2) * 1024 + 1 * (z 0).val = (z 0).val; rw [h 0]; omega
    | ⟨1, _⟩ => show win0_1.index t (1 : Fin 2) * 1024 + 1 * (z 1).val = (z 1).val; rw [h 1]; omega
  rw [e]

theorem w1_block (c : Dev nD) (t : Fin cfg0.N) :
    (iblk m c 2 t : S1024x1024.Idx → EReal) = (V m c main_v2 : S1024x1024.Idx → EReal) := by
  have h := (block_indices t).2.2.2.2.2.1
  funext z
  show V m c main_v2 (((cfg0.win 2).blk t).view.emb z) = V m c main_v2 z
  have e : ((cfg0.win 2).blk t).view.emb z = z := by
    funext a; apply Fin.ext
    match a with
    | ⟨0, _⟩ => show win0_2.index t (0 : Fin 2) * 1024 + 1 * (z 0).val = (z 0).val; rw [h 0]; omega
    | ⟨1, _⟩ => show win0_2.index t (1 : Fin 2) * 1024 + 1 * (z 1).val = (z 1).val; rw [h 1]; omega
  rw [e]

theorem w2_block (c : Dev nD) (t : Fin cfg0.N) :
    (iblk m c 3 t : S1024x1024.Idx → EReal) = (V m c main_v3 : S1024x1024.Idx → EReal) := by
  have h := (block_indices t).2.2.2.2.2.2.1
  funext z
  show V m c main_v3 (((cfg0.win 3).blk t).view.emb z) = V m c main_v3 z
  have e : ((cfg0.win 3).blk t).view.emb z = z := by
    funext a; apply Fin.ext
    match a with
    | ⟨0, _⟩ => show win0_3.index t (0 : Fin 2) * 1024 + 1 * (z 0).val = (z 0).val; rw [h 0]; omega
    | ⟨1, _⟩ => show win0_3.index t (1 : Fin 2) * 1024 + 1 * (z 1).val = (z 1).val; rw [h 1]; omega
  rw [e]

theorem w3_block (c : Dev nD) (t : Fin cfg0.N) :
    (iblk m c 4 t : S1024x1024.Idx → EReal) = (V m c main_v4 : S1024x1024.Idx → EReal) := by
  have h := (block_indices t).2.2.2.2.2.2.2.1
  funext z
  show V m c main_v4 (((cfg0.win 4).blk t).view.emb z) = V m c main_v4 z
  have e : ((cfg0.win 4).blk t).view.emb z = z := by
    funext a; apply Fin.ext
    match a with
    | ⟨0, _⟩ => show win0_4.index t (0 : Fin 2) * 1024 + 1 * (z 0).val = (z 0).val; rw [h 0]; omega
    | ⟨1, _⟩ => show win0_4.index t (1 : Fin 2) * 1024 + 1 * (z 1).val = (z 1).val; rw [h 1]; omega
  rw [e]

theorem b0_block (c : Dev nD) (t : Fin cfg0.N) :
    (iblk m c 5 t : S1x1024.Idx → EReal) = (V m c main_v5 : S1x1024.Idx → EReal) := by
  have h := (block_indices t).2.2.2.2.2.2.2.2.1
  funext z
  show V m c main_v5 (((cfg0.win 5).blk t).view.emb z) = V m c main_v5 z
  have e : ((cfg0.win 5).blk t).view.emb z = z := by
    funext a; apply Fin.ext
    match a with
    | ⟨0, _⟩ => show win0_5.index t (0 : Fin 2) * 1 + 1 * (z 0).val = (z 0).val; rw [h 0]; omega
    | ⟨1, _⟩ => show win0_5.index t (1 : Fin 2) * 1024 + 1 * (z 1).val = (z 1).val; rw [h 1]; omega
  rw [e]

theorem b1_block (c : Dev nD) (t : Fin cfg0.N) :
    (iblk m c 6 t : S1x1024.Idx → EReal) = (V m c main_v6 : S1x1024.Idx → EReal) := by
  have h := (block_indices t).2.2.2.2.2.2.2.2.2.1
  funext z
  show V m c main_v6 (((cfg0.win 6).blk t).view.emb z) = V m c main_v6 z
  have e : ((cfg0.win 6).blk t).view.emb z = z := by
    funext a; apply Fin.ext
    match a with
    | ⟨0, _⟩ => show win0_6.index t (0 : Fin 2) * 1 + 1 * (z 0).val = (z 0).val; rw [h 0]; omega
    | ⟨1, _⟩ => show win0_6.index t (1 : Fin 2) * 1024 + 1 * (z 1).val = (z 1).val; rw [h 1]; omega
  rw [e]

theorem b2_block (c : Dev nD) (t : Fin cfg0.N) :
    (iblk m c 7 t : S1x1024.Idx → EReal) = (V m c main_v7 : S1x1024.Idx → EReal) := by
  have h := (block_indices t).2.2.2.2.2.2.2.2.2.2.1
  funext z
  show V m c main_v7 (((cfg0.win 7).blk t).view.emb z) = V m c main_v7 z
  have e : ((cfg0.win 7).blk t).view.emb z = z := by
    funext a; apply Fin.ext
    match a with
    | ⟨0, _⟩ => show win0_7.index t (0 : Fin 2) * 1 + 1 * (z 0).val = (z 0).val; rw [h 0]; omega
    | ⟨1, _⟩ => show win0_7.index t (1 : Fin 2) * 1024 + 1 * (z 1).val = (z 1).val; rw [h 1]; omega
  rw [e]

theorem b3_block (c : Dev nD) (t : Fin cfg0.N) :
    (iblk m c 8 t : S1x1024.Idx → EReal) = (V m c main_v8 : S1x1024.Idx → EReal) := by
  have h := (block_indices t).2.2.2.2.2.2.2.2.2.2.2
  funext z
  show V m c main_v8 (((cfg0.win 8).blk t).view.emb z) = V m c main_v8 z
  have e : ((cfg0.win 8).blk t).view.emb z = z := by
    funext a; apply Fin.ext
    match a with
    | ⟨0, _⟩ => show win0_8.index t (0 : Fin 2) * 1 + 1 * (z 0).val = (z 0).val; rw [h 0]; omega
    | ⟨1, _⟩ => show win0_8.index t (1 : Fin 2) * 1024 + 1 * (z 1).val = (z 1).val; rw [h 1]; omega
  rw [e]

/-- What point `t` writes back is block `t` of `rowsOut`. -/
theorem written_back (c : Dev nD) (t : Fin cfg0.N) :
    (dats m 0 c).flushed 9 t = ((cfg0.win 9).blk t).view.read (Elt Ideal) (rowsOut m c) := by
  show (cfg0.win 9).cut (grid0.coords t) ((dats m 0 c).after 9 t) = _
  rw [after0_9, out_block]
  obtain ⟨e0, e1, e2, -⟩ := block_indices t
  funext y
  show blockRows (iblk m c 0 t) (iblk m c 1 t) (iblk m c 5 t) (iblk m c 2 t) (iblk m c 6 t) (iblk m c 3 t) (iblk m c 7 t)
      (iblk m c 4 t) (iblk m c 8 t) y = rowsOut m c (((cfg0.win 9).blk t).view.emb y)
  refine block_is_rows (V m c main_v0) (V m c main_v1) (V m c main_v2) (V m c main_v3) (V m c main_v4)
    (V m c main_v5) (V m c main_v6) (V m c main_v7) (V m c main_v8)
    (iblk m c 0 t) (iblk m c 1 t) (iblk m c 2 t) (iblk m c 3 t) (iblk m c 4 t)
    (iblk m c 5 t) (iblk m c 6 t) (iblk m c 7 t) (iblk m c 8 t) y (((cfg0.win 9).blk t).view.emb y) ?_ ?_
    (w0_block m c t) (w1_block m c t) (w2_block m c t) (w3_block m c t)
    (b0_block m c t) (b1_block m c t) (b2_block m c t) (b3_block m c t)
  · intro k
    show V m c main_v0 (((cfg0.win 0).blk t).view.emb (ix2 (y 0) k))
      = V m c main_v0 (ix2 ((((cfg0.win 9).blk t).view.emb y) 0) k)
    have e : ((cfg0.win 0).blk t).view.emb (ix2 (y 0) k) = ix2 ((((cfg0.win 9).blk t).view.emb y) 0) k := by
      funext a; apply Fin.ext
      match a with
      | ⟨0, _⟩ =>
        show win0_0.index t (0 : Fin 2) * 1024 + 1 * (y 0).val = win0_9.index t (0 : Fin 2) * 1024 + 1 * (y 0).val
        rw [e0]
      | ⟨1, _⟩ => show win0_0.index t (1 : Fin 2) * 1024 + 1 * k.val = k.val; rw [e1]; omega
    rw [e]; rfl
  · show win0_9.index t (1 : Fin 2) * 1024 + 1 * (y 1).val = (y 1).val
    rw [e2]; omega

/-- An index of the output matrix is in point `t`'s block iff each coordinate is in the block's range on its axis. -/
theorem mem_block (t : Fin cfg0.N) (i : S4096x1024.Idx) :
    i ∈ ((cfg0.win 9).blk t).view.set ↔ ∀ a : Fin 2, win0_9.index t a * S1024x1024.size a ≤ (i a).val
      ∧ (i a).val < win0_9.index t a * S1024x1024.size a + S1024x1024.size a := by
  show i ∈ ((View.whole main_v9).slice (win0_9.rect t)).set ↔ _
  rw [View.set_slice_whole, Rect.mem_set_unit]
  exact Iff.rfl

/-- Row `r` of the output matrix is in the block of point `r / 1024`. -/
theorem rows_covered (i : S4096x1024.Idx) :
    ∃ t : Fin cfg0.N, (cfg0.win 9).flush t = true ∧ i ∈ ((cfg0.win 9).blk t).view.set := by
  have hi0 : (i 0).val < 4096 := (i 0).isLt
  have hi1 : (i 1).val < 1024 := (i 1).isLt
  have hN : cfg0.N = 4 := N_0
  obtain ⟨t, ht⟩ : ∃ t : Fin cfg0.N, t.val = (i 0).val / 1024 := ⟨⟨(i 0).val / 1024, by rw [hN]; omega⟩, rfl⟩
  obtain ⟨-, -, e2, e3, -⟩ := block_indices t
  refine ⟨t, flush0_9 t, ?_⟩
  rw [mem_block]
  intro a
  match a with
  | ⟨0, _⟩ =>
    show win0_9.index t (0 : Fin 2) * 1024 ≤ (i 0).val ∧ (i 0).val < win0_9.index t (0 : Fin 2) * 1024 + 1024
    rw [e3, ht]; omega
  | ⟨1, _⟩ =>
    show win0_9.index t (1 : Fin 2) * 1024 ≤ (i 1).val ∧ (i 1).val < win0_9.index t (1 : Fin 2) * 1024 + 1024
    rw [e2]; omega

/-- So the output matrix ends holding `rowsOut`. -/
theorem rows_final (c : Dev nD) : (dats m 0 c).arrAt 9 cfg0.N = rowsOut m c :=
  (dats m 0 c).arrAt_eq_of_cover 9 (rowsOut m c) (fun t _ => written_back m c t) rows_covered

/-- `rowsOut` in the arguments: the network on the rows of the input. -/
theorem rowsOut_eq (c : Dev nD) :
    rowsOut m c = mlpRows (shapeCast S4096x1024 (m ((c.tc : Thread nD τ).loc main_arg0)) shapeCasts_S32x128x1024_S4096x1024)
      (m ((c.tc : Thread nD τ).loc main_arg1)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) (m ((c.tc : Thread nD τ).loc main_arg8)) := by
  unfold rowsOut
  rw [rows_found, w0_found, w1_found, w2_found, w3_found, b0_found, b1_found, b2_found, b3_found,
    rowOf_cast, rowOf_cast, rowOf_cast, rowOf_cast]

/-- What the host reads back after the region: the network on the input, in the input's shape. -/
theorem result_found (c : Dev nD) :
    Pipeline.afterTail₀ cfgs (dats m) 0 (V0 m) [hostOps1] c main_v10
      = Cert.Spec.mlp shapeCasts_S32x128x1024_S4096x1024 shapeCasts_S4096x1024_S32x128x1024
          (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) := by
  unfold Pipeline.afterTail₀
  show StableHlo.after hostOps1 _ (Proc.devRef .tc main_v10) = _
  after_results
  have e := (Pipeline.withArrays_arr spec0 launch0.win.arr_inj c (V0 m c) (fun w => (dats m 0 c).arrAt w cfg0.N) 9).trans
    ((rows_final m c).trans (rowsOut_eq m c))
  exact congrArg (fun A : S4096x1024.Idx → EReal => shapeCast S32x128x1024 A shapeCasts_S4096x1024_S32x128x1024) e

/-- The run of the idealized kernel's program: from any memory, every execution ends with the result array at the
    network on the input and the nine arguments as they were. -/
theorem run :
    θ_run (Cert.KernelIdeal.defs (F := Ideal)) (onTc (τ := τ) (Cert.KernelIdeal.main (F := Ideal))) ⟨m, fun _ => 0, ρ⟩
      (fun r => ∀ c : Dev nD,
      r.2.mem ((c.tc : Thread nD τ).loc main_v10)
        = Cert.Spec.mlp shapeCasts_S32x128x1024_S4096x1024 shapeCasts_S4096x1024_S32x128x1024
            (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨((h c).2 main_v10 (Pipeline.mem_restRefs_of main_v10 (by decide) (by decide))).trans (result_found m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelSide

end
-- ==== Proof.RefRuns.lean ====
/-
  The reference's kernel body at one grid point, case by case.

  The grid is 16 row blocks × 4 layers; the body keeps the activation of its row block in a scratch buffer between
  the four layer points.  At layer 0 it copies the input block into the scratch; at every layer it applies one dense
  layer with rectifier to the scratch's contents; at layers 0, 1, 2 it stores the result back into the scratch, and
  at layer 3 into the output block.  Three cases by the layer coordinate: the first layer, a middle layer, the last.
  Each case's run says what the stores leave in the buffer the case writes, as a list of written pieces.
-/
import proofs.«158575_g2000405746462539_pallasbulk_774_7_alg».proof.Proof.Gen.ReferenceIdeal.Frame
import proofs.«158575_g2000405746462539_pallasbulk_774_7_alg».proof.Proof.Gen.ReferenceIdeal.Skeleton

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

/-! ## The three tests on the layer coordinate -/

/-- The layer coordinate is 0. -/
abbrev isFirst (i : grid0.Coords) : Prop := (Scalar.cmpi .ne (Scalar.extui (Scalar.cmpi .eq (BitVec.ofNat 32 (i 1).val) 0#32)) 0#32) = 1#1
/-- The layer coordinate is below 3. -/
abbrev carries (i : grid0.Coords) : Prop := (Scalar.cmpi .ne (Scalar.extui (Scalar.cmpi .slt (BitVec.ofNat 32 (i 1).val) 3#32)) 0#32) = 1#1
/-- The layer coordinate is 3. -/
abbrev isLast (i : grid0.Coords) : Prop := k0_cond3 i = 1#1

/-- Point `t` of the 64 has layer coordinate `t % 4`. -/
theorem isFirst_iff : ∀ t : Fin cfg0.N, isFirst (grid0.coords t) ↔ t.val % 4 = 0 :=
  (by decide +kernel : ∀ t : Fin grid0.N, isFirst (grid0.coords t) ↔ t.val % 4 = 0)
theorem carries_iff : ∀ t : Fin cfg0.N, carries (grid0.coords t) ↔ t.val % 4 ≠ 3 :=
  (by decide +kernel : ∀ t : Fin grid0.N, carries (grid0.coords t) ↔ t.val % 4 ≠ 3)
theorem isLast_iff : ∀ t : Fin cfg0.N, isLast (grid0.coords t) ↔ t.val % 4 = 3 :=
  (by decide +kernel : ∀ t : Fin grid0.N, isLast (grid0.coords t) ↔ t.val % 4 = 3)

/-! ## The body, case by case -/

set_option maxHeartbeats 1000000 in
/-- The first layer: the scratch, at anything, ends with two pieces written (the input block, then the layer's result);
    the output buffer is handed back untouched. -/
noncomputable def runFirst (c : Dev nD) (i : grid0.Coords) (arg2 : Memref sig .tc .vmem S256x1024 .f32) (harg2 : arg2.IsWhole)
    (arg3 : Memref sig .tc .vmem S1x1024x1024 .f32) (harg3 : arg3.IsWhole) (arg4 : Memref sig .tc .vmem S1x1x1024 .f32) (harg4 : arg4.IsWhole)
    (arg5 : Memref sig .tc .vmem S256x1024 .f32) (harg5 : arg5.IsWhole) (arg6 : Memref sig .tc .vmem S256x1024 .f32) (harg6 : arg6.IsWhole)
    (h1 : isFirst i) (h2 : carries i) (h3 : ¬isLast i)
    (x : Vec F S256x1024 .f32) (w : Vec F S1x1024x1024 .f32) (b : Vec F S1x1x1024 .f32) :
    { LS : List (View.Piece (Elt F) S256x1024 .f32) //
      ∀ (o s : Vec F S256x1024 .f32) (E : Set ℕ) (K : PUnit → sProp 𝕄),
        iprop(owns (c : Thread nD τ) arg2 fullShare x ∗ owns (c : Thread nD τ) arg3 fullShare w ∗ owns (c : Thread nD τ) arg4 fullShare b
            ∗ owns (c : Thread nD τ) arg5 fullShare o ∗ owns (c : Thread nD τ) arg6 fullShare s
            ∗ (iprop(owns (c : Thread nD τ) arg2 fullShare x ∗ owns (c : Thread nD τ) arg3 fullShare w ∗ owns (c : Thread nD τ) arg4 fullShare b
                ∗ owns (c : Thread nD τ) arg5 fullShare o ∗ (∃ f, arg6.view.loc (c : Thread nD τ) ↦[arg6.view.set]{fullShare} arg6.view.writes (Elt F) f LS)) -∗ K ⟨⟩))
          ⊢ wp frame (wpE (defs₀ (F := F)) Variants.none c none) E (cc0__fused_mlp_kernel i arg2 harg2 arg3 harg3 arg4 harg4 arg5 harg5 arg6 harg6) K } := by
  refine ⟨?_, fun o s E K => ?run⟩
  case run =>
    simp only [cc0__fused_mlp_kernel_eq_skeleton]; unfold cc0__fused_mlp_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- A middle layer: the scratch, at the activation `s` the point before left, ends with one piece written (the layer's
    result on `s`); the output buffer is handed back untouched. -/
noncomputable def runMid (c : Dev nD) (i : grid0.Coords) (arg2 : Memref sig .tc .vmem S256x1024 .f32) (harg2 : arg2.IsWhole)
    (arg3 : Memref sig .tc .vmem S1x1024x1024 .f32) (harg3 : arg3.IsWhole) (arg4 : Memref sig .tc .vmem S1x1x1024 .f32) (harg4 : arg4.IsWhole)
    (arg5 : Memref sig .tc .vmem S256x1024 .f32) (harg5 : arg5.IsWhole) (arg6 : Memref sig .tc .vmem S256x1024 .f32) (harg6 : arg6.IsWhole)
    (h1 : ¬isFirst i) (h2 : carries i) (h3 : ¬isLast i)
    (x : Vec F S256x1024 .f32) (w : Vec F S1x1024x1024 .f32) (b : Vec F S1x1x1024 .f32) (s : Vec F S256x1024 .f32) :
    { LS : List (View.Piece (Elt F) S256x1024 .f32) //
      ∀ (o : Vec F S256x1024 .f32) (E : Set ℕ) (K : PUnit → sProp 𝕄),
        iprop(owns (c : Thread nD τ) arg2 fullShare x ∗ owns (c : Thread nD τ) arg3 fullShare w ∗ owns (c : Thread nD τ) arg4 fullShare b
            ∗ owns (c : Thread nD τ) arg5 fullShare o ∗ owns (c : Thread nD τ) arg6 fullShare s
            ∗ (iprop(owns (c : Thread nD τ) arg2 fullShare x ∗ owns (c : Thread nD τ) arg3 fullShare w ∗ owns (c : Thread nD τ) arg4 fullShare b
                ∗ owns (c : Thread nD τ) arg5 fullShare o ∗ (∃ f, arg6.view.loc (c : Thread nD τ) ↦[arg6.view.set]{fullShare} arg6.view.writes (Elt F) f LS)) -∗ K ⟨⟩))
          ⊢ wp frame (wpE (defs₀ (F := F)) Variants.none c none) E (cc0__fused_mlp_kernel i arg2 harg2 arg3 harg3 arg4 harg4 arg5 harg5 arg6 harg6) K } := by
  refine ⟨?_, fun o E K => ?run⟩
  case run =>
    simp only [cc0__fused_mlp_kernel_eq_skeleton]; unfold cc0__fused_mlp_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- The last layer: the output buffer, at anything, ends with one piece written (the layer's result on the scratch's
    activation `s`); the scratch is handed back as it was. -/
noncomputable def runLast (c : Dev nD) (i : grid0.Coords) (arg2 : Memref sig .tc .vmem S256x1024 .f32) (harg2 : arg2.IsWhole)
    (arg3 : Memref sig .tc .vmem S1x1024x1024 .f32) (harg3 : arg3.IsWhole) (arg4 : Memref sig .tc .vmem S1x1x1024 .f32) (harg4 : arg4.IsWhole)
    (arg5 : Memref sig .tc .vmem S256x1024 .f32) (harg5 : arg5.IsWhole) (arg6 : Memref sig .tc .vmem S256x1024 .f32) (harg6 : arg6.IsWhole)
    (h1 : ¬isFirst i) (h2 : ¬carries i) (h3 : isLast i)
    (x : Vec F S256x1024 .f32) (w : Vec F S1x1024x1024 .f32) (b : Vec F S1x1x1024 .f32) (s : Vec F S256x1024 .f32) :
    { LO : List (View.Piece (Elt F) S256x1024 .f32) //
      ∀ (o : Vec F S256x1024 .f32) (E : Set ℕ) (K : PUnit → sProp 𝕄),
        iprop(owns (c : Thread nD τ) arg2 fullShare x ∗ owns (c : Thread nD τ) arg3 fullShare w ∗ owns (c : Thread nD τ) arg4 fullShare b
            ∗ owns (c : Thread nD τ) arg5 fullShare o ∗ owns (c : Thread nD τ) arg6 fullShare s
            ∗ (iprop(owns (c : Thread nD τ) arg2 fullShare x ∗ owns (c : Thread nD τ) arg3 fullShare w ∗ owns (c : Thread nD τ) arg4 fullShare b
                ∗ (∃ f, arg5.view.loc (c : Thread nD τ) ↦[arg5.view.set]{fullShare} arg5.view.writes (Elt F) f LO) ∗ owns (c : Thread nD τ) arg6 fullShare s) -∗ K ⟨⟩))
          ⊢ wp frame (wpE (defs₀ (F := F)) Variants.none c none) E (cc0__fused_mlp_kernel i arg2 harg2 arg3 harg3 arg4 harg4 arg5 harg5 arg6 harg6) K } := by
  refine ⟨?_, fun o E K => ?run⟩
  case run =>
    simp only [cc0__fused_mlp_kernel_eq_skeleton]; unfold cc0__fused_mlp_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; isplitr; · ipureintro; exact harg6.read_unread _
    iexact HS

end Cert.ReferenceIdeal.Body

end
-- ==== Proof.RefReads.lean ====
/-
  What each case of the body leaves, read back as a value.

  The pieces a case's run wrote into the buffer it stores to cover that buffer (each store is of the whole block), so
  the buffer reads back as the last store's payload: the first layer leaves the layer applied to the copied input
  block, a middle layer the layer applied to the activation it found, the last layer the same in the output block.
-/
import proofs.«158575_g2000405746462539_pallasbulk_774_7_alg».proof.Proof.RefRuns
import Idealize.ShloMosaic.Lib.Pipeline.Value

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

/-- The zero offsets of a whole-block access, in the two ranks the body uses. -/
theorem hz2 : (![0, 0] : Fin 2 → Nat) = fun _ => 0 := by funext a; fin_cases a <;> rfl
theorem hz3 : (![0, 0, 0] : Fin 3 → Nat) = fun _ => 0 := by funext a; fin_cases a <;> rfl

/-- The first layer leaves, in the scratch, the layer applied to the input block. -/
theorem first_reads (c : Dev nD) (i : grid0.Coords) (arg2 : Memref sig .tc .vmem S256x1024 .f32) (harg2 : arg2.IsWhole)
    (arg3 : Memref sig .tc .vmem S1x1024x1024 .f32) (harg3 : arg3.IsWhole) (arg4 : Memref sig .tc .vmem S1x1x1024 .f32) (harg4 : arg4.IsWhole)
    (arg5 : Memref sig .tc .vmem S256x1024 .f32) (harg5 : arg5.IsWhole) (arg6 : Memref sig .tc .vmem S256x1024 .f32) (harg6 : arg6.IsWhole)
    (h1 : isFirst i) (h2 : carries i) (h3 : ¬isLast i)
    (x : Vec F S256x1024 .f32) (w : Vec F S1x1024x1024 .f32) (b : Vec F S1x1x1024 .f32)
    (v : View sig .tc .vmem S256x1024 .f32) (f : v.ty.Contents (Elt F)) :
    v.read (Elt F) (v.writes (Elt F) f (runFirst c i arg2 harg2 arg3 harg3 arg4 harg4 arg5 harg5 arg6 harg6 h1 h2 h3 x w b).1) = k0_pay3 (k0_pay1 x) w b := by
  unfold runFirst; dsimp only; sl_unfold_words
  rw [View.read_writes_eq_canon _ _ _ (fun y => ⟨_, List.mem_cons_self, View.mem_set_unit_zero hz2 Facts₀.inb_S256x1024_S256x1024_0_0 y⟩)]
  rw [View.canon_cons_unit_zero hz2, View.readCov_unit_zero _ hz2]
  simp only [View.readAt_eq_ld, harg2.read_unread, harg3.read_unread, harg4.read_unread, View.ld_unit_zero (S := S256x1024) hz2,
    View.ld_unit_zero (S := S1x1024x1024) hz3, View.ld_unit_zero (S := S1x1x1024) hz3]

/-- A middle layer leaves, in the scratch, the layer applied to the activation it found there. -/
theorem mid_reads (c : Dev nD) (i : grid0.Coords) (arg2 : Memref sig .tc .vmem S256x1024 .f32) (harg2 : arg2.IsWhole)
    (arg3 : Memref sig .tc .vmem S1x1024x1024 .f32) (harg3 : arg3.IsWhole) (arg4 : Memref sig .tc .vmem S1x1x1024 .f32) (harg4 : arg4.IsWhole)
    (arg5 : Memref sig .tc .vmem S256x1024 .f32) (harg5 : arg5.IsWhole) (arg6 : Memref sig .tc .vmem S256x1024 .f32) (harg6 : arg6.IsWhole)
    (h1 : ¬isFirst i) (h2 : carries i) (h3 : ¬isLast i)
    (x : Vec F S256x1024 .f32) (w : Vec F S1x1024x1024 .f32) (b : Vec F S1x1x1024 .f32) (s : Vec F S256x1024 .f32)
    (v : View sig .tc .vmem S256x1024 .f32) (f : v.ty.Contents (Elt F)) :
    v.read (Elt F) (v.writes (Elt F) f (runMid c i arg2 harg2 arg3 harg3 arg4 harg4 arg5 harg5 arg6 harg6 h1 h2 h3 x w b s).1) = k0_pay3 s w b := by
  unfold runMid; dsimp only; sl_unfold_words
  rw [View.read_writes_eq_canon _ _ _ (fun y => ⟨_, List.mem_singleton_self _, View.mem_set_unit_zero hz2 Facts₀.inb_S256x1024_S256x1024_0_0 y⟩)]
  rw [View.canon_unit_zero hz2]
  simp only [View.readAt_eq_ld, harg6.read_unread, harg3.read_unread, harg4.read_unread, View.ld_unit_zero (S := S256x1024) hz2,
    View.ld_unit_zero (S := S1x1024x1024) hz3, View.ld_unit_zero (S := S1x1x1024) hz3]

/-- The last layer leaves, in the output block, the layer applied to the activation in the scratch. -/
theorem last_reads (c : Dev nD) (i : grid0.Coords) (arg2 : Memref sig .tc .vmem S256x1024 .f32) (harg2 : arg2.IsWhole)
    (arg3 : Memref sig .tc .vmem S1x1024x1024 .f32) (harg3 : arg3.IsWhole) (arg4 : Memref sig .tc .vmem S1x1x1024 .f32) (harg4 : arg4.IsWhole)
    (arg5 : Memref sig .tc .vmem S256x1024 .f32) (harg5 : arg5.IsWhole) (arg6 : Memref sig .tc .vmem S256x1024 .f32) (harg6 : arg6.IsWhole)
    (h1 : ¬isFirst i) (h2 : ¬carries i) (h3 : isLast i)
    (x : Vec F S256x1024 .f32) (w : Vec F S1x1024x1024 .f32) (b : Vec F S1x1x1024 .f32) (s : Vec F S256x1024 .f32)
    (v : View sig .tc .vmem S256x1024 .f32) (f : v.ty.Contents (Elt F)) :
    v.read (Elt F) (v.writes (Elt F) f (runLast c i arg2 harg2 arg3 harg3 arg4 harg4 arg5 harg5 arg6 harg6 h1 h2 h3 x w b s).1) = k0_pay2 s w b := by
  unfold runLast; dsimp only; sl_unfold_words
  rw [View.read_writes_eq_canon _ _ _ (fun y => ⟨_, List.mem_singleton_self _, View.mem_set_unit_zero hz2 Facts₀.inb_S256x1024_S256x1024_0_0 y⟩)]
  rw [View.canon_unit_zero hz2]
  simp only [View.readAt_eq_ld, harg6.read_unread, harg3.read_unread, harg4.read_unread, View.ld_unit_zero (S := S256x1024) hz2,
    View.ld_unit_zero (S := S1x1024x1024) hz3, View.ld_unit_zero (S := S1x1x1024) hz3]

end Cert.ReferenceIdeal.Body

end
-- ==== Proof.RefBody.lean ====
/-
  The reference's frame: the proof data of its one pipeline and the body obligation at every point.

  The 64 grid points run row block by row block, four layer points per block.  After layer point `l` of a block the
  scratch holds the activation after `l + 1` layers for `l ≤ 2`, and after the last point still the activation after
  three layers; the output block is written at the last point only, with the fourth layer applied to that activation,
  and is left alone (and not written back) at the other points.  The scratch's contents are carried by the
  invariant: before the first point the scratch holds anything, afterwards what the point before left.
-/
import proofs.«158575_g2000405746462539_pallasbulk_774_7_alg».proof.Proof.RefReads

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the body is called with -/

/-- Each window's current staging buffer at point `t`, and the scratch. -/
abbrev ms0 (t : Fin cfg0.N) : Memref sig .tc .vmem S256x1024 .f32 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S1x1024x1024 .f32 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S1x1x1024 .f32 := win0_2.stage (cfg0.slots t 2)
abbrev hs2 (t : Fin cfg0.N) : (ms2 t).IsWhole := Facts₀.hstage0_2 ((cfg0.slots t 2).cast Facts₀.nbuf0_2)
abbrev ms3 (t : Fin cfg0.N) : Memref sig .tc .vmem S256x1024 .f32 := win0_3.stage (cfg0.slots t 3)
abbrev hs3 (t : Fin cfg0.N) : (ms3 t).IsWhole := Facts₀.hstage0_3 ((cfg0.slots t 3).cast Facts₀.nbuf0_3)
abbrev scM : Memref sig .tc .vmem S256x1024 .f32 := Memref.whole cc0_scratch0

/-- What the region may use without describing it is the scratch at some contents and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## Where the output window is idle -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
/-- Away from the last layer the output block is neither stored into nor written back. -/
theorem idle3_of : ∀ t : Fin cfg0.N, ¬isLast (grid0.coords t) → cfg0.idle 3 (grid0.coords t) = true := by decide +kernel
theorem noFlush3_of : ∀ t : Fin cfg0.N, ¬isLast (grid0.coords t) → (cfg0.win 3).flush t = false := by decide +kernel
/-- At the last layer it is stored into. -/
theorem live3_of : ∀ t : Fin cfg0.N, isLast (grid0.coords t) → cfg0.idle 3 (grid0.coords t) = false := by decide +kernel

/-! ## What the scratch and the output block hold after each point -/

/-- The scratch after the body at position `n`: at a first layer the layer applied to the input block; at a middle
    layer the layer applied to what the position before left; at a last layer what the position before left. -/
def sAt (c : Dev nD) : (n : ℕ) → n < cfg0.N → Vec F S256x1024 .f32
  | 0, hn => k0_pay3 (k0_pay1 (iblk m c 0 ⟨0, hn⟩)) (iblk m c 1 ⟨0, hn⟩) (iblk m c 2 ⟨0, hn⟩)
  | n + 1, hn =>
    if h0 : (n + 1) % 4 = 0 then
      k0_pay3 (k0_pay1 (iblk m c 0 ⟨n + 1, hn⟩)) (iblk m c 1 ⟨n + 1, hn⟩) (iblk m c 2 ⟨n + 1, hn⟩)
    else if h3 : (n + 1) % 4 = 3 then sAt c n (Nat.lt_of_succ_lt hn)
    else k0_pay3 (sAt c n (Nat.lt_of_succ_lt hn)) (iblk m c 1 ⟨n + 1, hn⟩) (iblk m c 2 ⟨n + 1, hn⟩)

theorem sAt_first (c : Dev nD) (t : Fin cfg0.N) (h0 : t.val % 4 = 0) :
    sAt m c t.val t.isLt = k0_pay3 (k0_pay1 (iblk m c 0 t)) (iblk m c 1 t) (iblk m c 2 t) := by
  obtain ⟨n, hn⟩ := t
  cases n with
  | zero => exact rfl
  | succ n => exact (dif_pos h0).trans rfl

theorem sAt_mid (c : Dev nD) (t : Fin cfg0.N) (h0 : ¬t.val % 4 = 0) (h3 : ¬t.val % 4 = 3) :
    sAt m c t.val t.isLt
      = k0_pay3 (sAt m c (t.val - 1) (Nat.lt_of_le_of_lt (Nat.sub_le _ _) t.isLt)) (iblk m c 1 t) (iblk m c 2 t) := by
  obtain ⟨n, hn⟩ := t
  cases n with
  | zero => exact absurd (Nat.zero_mod _) h0
  | succ n => exact (dif_neg h0).trans ((dif_neg h3).trans rfl)

theorem sAt_last (c : Dev nD) (t : Fin cfg0.N) (h0 : ¬t.val % 4 = 0) (h3 : t.val % 4 = 3) :
    sAt m c t.val t.isLt = sAt m c (t.val - 1) (Nat.lt_of_le_of_lt (Nat.sub_le _ _) t.isLt) := by
  obtain ⟨n, hn⟩ := t
  cases n with
  | zero => exact absurd (Nat.zero_mod _) h0
  | succ n => exact (dif_neg h0).trans ((dif_pos h3).trans rfl)

/-- The output block after the body at a last-layer point: the layer applied to what the point before left in the
    scratch (at the other points the block is idle and this is not consulted). -/
def oAt (c : Dev nD) (t : Fin cfg0.N) : Vec F S256x1024 .f32 :=
  k0_pay2 (sAt m c (t.val - 1) (Nat.lt_of_le_of_lt (Nat.sub_le _ _) t.isLt)) (iblk m c 1 t) (iblk m c 2 t)

/-- The region invariant before position `n`: before the first point the class's (the scratch at anything);
    afterwards the scratch at what the position before left, and the generator register at some state. -/
def PhiS (c : Dev nD) : (n : ℕ) → n ≤ cfg0.N → sProp 𝕄
  | 0, _ => Pipeline.ΦA spec0 c
  | n + 1, hn => iprop(iprop(owns (c : Thread nD τ) scM fullShare (sAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (sAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (sAt m c (n - 1) (by omega))) ∗ (∃ r, prngReg c r)) := by
  cases n with
  | zero => exact absurd rfl hz
  | succ n => rfl

/-! ## The pipeline's proof data -/

/-- The arrays as the region finds them; after the body each input's buffer at its block and the output's at `oAt`;
    the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => oAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = oAt m c t := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]
theorem leaves2 (c : Dev nD) (t : Fin cfg0.N) :
    (dats m 0 c).leavesExact 2 t = owns (c : Thread nD τ) (ms2 t) fullShare (iblk m c 2 t) := by
  unfold Dat.leavesExact; rw [live2 t, after2]

set_option maxHeartbeats 4800000 in
/-- The body at any point, by the layer coordinate's three cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2]
  have hN : t.val < 64 := lt_of_lt_of_eq t.isLt (show cfg0.N = 64 from N_0)
  by_cases h0 : t.val % 4 = 0
  · have c1 : isFirst (grid0.coords t) := (isFirst_iff t).mpr h0
    have c2 : carries (grid0.coords t) := (carries_iff t).mpr (by omega)
    have c3 : ¬isLast (grid0.coords t) := fun h => by have := (isLast_iff t).mp h; omega
    rw [Dat.leavesExact_idle (dats m 0 c) 3 t (idle3_of t c3) (noFlush3_of t c3)]
    rw [sAt_first m c t h0]
    by_cases hz : t.val = 0
    · rw [PhiS_castSucc m c t, PhiS_zero m c _ _ hz, PhiA_eq]
      iintro ⟨⟨⟨%s, HS⟩, Hg⟩, Ho, ⟨%d0, H0⟩, ⟨%d1, H1⟩, ⟨%d2, H2⟩, ⟨%d3, H3⟩⟩
      iapply ((runFirst c (grid0.coords t) (ms0 t) (hs0 t) (ms1 t) (hs1 t) (ms2 t) (hs2 t) (ms3 t) (hs3 t) scM (Memref.isWhole_whole _) c1 c2 c3
        (iblk m c 0 t) (iblk m c 1 t) (iblk m c 2 t)).2 _ s Set.univ _)
      isplitl [H0]; · iexact H0
      isplitl [H1]; · iexact H1
      isplitl [H2]; · iexact H2
      isplitl [H3]; · iexact H3
      isplitl [HS]; · iexact HS
      iintro ⟨H0, H1, H2, H3, ⟨%fs, HS⟩⟩
      isplitl [HS Hg]
      · isplitl [HS]
        · unfold owns; iexists _; isplitr
          swap; · iexact HS
          ipureintro; exact first_reads c _ _ _ _ _ _ _ _ _ _ _ c1 c2 c3 _ _ _ _ _
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((runFirst c (grid0.coords t) (ms0 t) (hs0 t) (ms1 t) (hs1 t) (ms2 t) (hs2 t) (ms3 t) (hs3 t) scM (Memref.isWhole_whole _) c1 c2 c3
        (iblk m c 0 t) (iblk m c 1 t) (iblk m c 2 t)).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%fs, HS⟩⟩
      isplitl [HS Hg]
      · isplitl [HS]
        · unfold owns; iexists _; isplitr
          swap; · iexact HS
          ipureintro; exact first_reads c _ _ _ _ _ _ _ _ _ _ _ c1 c2 c3 _ _ _ _ _
        iexact Hg
      isplitl [Ho]; · iexact Ho
      isplitl [H0]; · iexact H0
      isplitl [H1]; · iexact H1
      isplitl [H2]; · iexact H2
      iexists _; iexact H3
  · have c1 : ¬isFirst (grid0.coords t) := fun h => h0 ((isFirst_iff t).mp h)
    have hz : t.val ≠ 0 := fun h => h0 (by rw [h])
    by_cases h3 : t.val % 4 = 3
    · have c2 : ¬carries (grid0.coords t) := fun h => (carries_iff t).mp h h3
      have c3 : isLast (grid0.coords t) := (isLast_iff t).mpr h3
      rw [show (dats m 0 c).leavesExact 3 t = owns (c : Thread nD τ) (ms3 t) fullShare ((dats m 0 c).after 3 t) from by
        unfold Dat.leavesExact; rw [live3_of t c3], after3]
      rw [sAt_last m c t h0 h3]
      unfold oAt
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runLast c (grid0.coords t) (ms0 t) (hs0 t) (ms1 t) (hs1 t) (ms2 t) (hs2 t) (ms3 t) (hs3 t) scM (Memref.isWhole_whole _) c1 c2 c3
        (iblk m c 0 t) (iblk m c 1 t) (iblk m c 2 t) _).2 _ Set.univ _)
      isplitl [H0]; · iexact H0
      isplitl [H1]; · iexact H1
      isplitl [H2]; · iexact H2
      isplitl [H3]; · iexact H3
      isplitl [HS]; · iexact HS
      iintro ⟨H0, H1, H2, ⟨%fo, H3⟩, HS⟩
      isplitl [HS Hg]
      · isplitl [HS]; · iexact HS
        iexact Hg
      isplitl [Ho]; · iexact Ho
      isplitl [H0]; · iexact H0
      isplitl [H1]; · iexact H1
      isplitl [H2]; · iexact H2
      unfold owns; iexists _; isplitr
      swap; · iexact H3
      ipureintro; exact last_reads c _ _ _ _ _ _ _ _ _ _ _ c1 c2 c3 _ _ _ _ _ _
    · have c2 : carries (grid0.coords t) := (carries_iff t).mpr h3
      have c3 : ¬isLast (grid0.coords t) := fun h => h3 ((isLast_iff t).mp h)
      rw [Dat.leavesExact_idle (dats m 0 c) 3 t (idle3_of t c3) (noFlush3_of t c3)]
      rw [sAt_mid m c t h0 h3]
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runMid c (grid0.coords t) (ms0 t) (hs0 t) (ms1 t) (hs1 t) (ms2 t) (hs2 t) (ms3 t) (hs3 t) scM (Memref.isWhole_whole _) c1 c2 c3
        (iblk m c 0 t) (iblk m c 1 t) (iblk m c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%fs, HS⟩⟩
      isplitl [HS Hg]
      · isplitl [HS]
        · unfold owns; iexists _; isplitr
          swap; · iexact HS
          ipureintro; exact mid_reads c _ _ _ _ _ _ _ _ _ _ _ c1 c2 c3 _ _ _ _ _ _
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨HS, Hg⟩
  isplitl [HS]
  · iexists _; iexact HS
  iexact Hg

/-! ## The run and the frame -/

set_option backward.isDefEq.respectTransparency.types false in
/-- Every weakly fair execution of the program terminates, nothing faulting; the output array ends at what the
    write-backs of the proof data leave, every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its nine argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.ReferenceIdeal.Body

end
-- ==== Proof.RefLayer.lean ====
/-
  One layer of the reference's body read at an element.

  On the extended reals the body's layer takes the activation block `s` (256 rows), the weight plane `w` (one plane of
  the stack, [1, 1024, 1024]) and the bias row `b` ([1, 1, 1024]) to
  `(p, q) ↦ max (∑ k, s (p, k) * w (0, k, q) + b (0, 0, q)) 0`: the matrix product into a zero accumulator is the
  plain sum, the bias row is repeated down the rows, and the rectifier is the maximum with zero.  The value carried to
  the next layer is the same array (the casts between equal shapes change nothing), and the first layer's copy of the
  input block is the input block.
-/
import proofs.«158575_g2000405746462539_pallasbulk_774_7_alg».proof.Proof.Gen.ReferenceIdeal.Skeleton
import proofs.«158575_g2000405746462539_pallasbulk_774_7_alg».proof.Proof.Spec
import proofs.«158575_g2000405746462539_pallasbulk_774_7_alg».proof.Proof.LibMatmulAt
import Idealize.ShloMosaic.PureOps.Ideal.Laws
import Idealize.ShloMosaic.Lib.ValueIdx
import Idealize.ShloMosaic.Lib.Pipeline.Value

noncomputable section

namespace Cert.ReferenceIdeal.Layer

open Idealize.ShloMosaic Idealize.ShloMosaic.ValueIdx
open Cert.ReferenceIdeal Cert.ReferenceIdeal.Gen

/-- The weight plane of a one-plane stack, as a matrix. -/
def plane (w : Vec Ideal S1x1024x1024 .f32) : Cert.Spec.SW.Idx → EReal := fun j => w (ix3 (0 : Fin 1) (j 0) (j 1))
/-- The bias row of a one-row stack, as a vector. -/
def row (b : Vec Ideal S1x1x1024 .f32) : Cert.Spec.SB.Idx → EReal := fun j => b (ix3 (0 : Fin 1) (0 : Fin 1) (j 0))

/-- The plane cast to a matrix reads the plane. -/
theorem cast_plane_apply (w : Vec Ideal S1x1024x1024 .f32) (h : S1x1024x1024.ShapeCasts S1024x1024) (k q : Fin 1024) :
    shapeCast S1024x1024 w h (ix2 k q) = w (ix3 (0 : Fin 1) k q) :=
  shapeCast_apply w h _ _ (by
    rw [Shape.rowMajor_val_three, Shape.rowMajor_val_two]
    show ((0 : ℕ) * 1024 + k.val) * 1024 + q.val = k.val * 1024 + q.val
    omega)

/-- The bias row cast to [1, 1024] and repeated down 256 rows reads the bias at the column. -/
theorem bias_apply (b : Vec Ideal S1x1x1024 .f32) (h : S1x1x1024.ShapeCasts S1x1024) (h' : S1x1024.Broadcasts S256x1024)
    (p : Fin 256) (q : Fin 1024) :
    broadcastTo S256x1024 (shapeCast S1x1024 b h) h' (ix2 p q) = b (ix3 (0 : Fin 1) (0 : Fin 1) q) := by
  rw [broadcastTo_apply (shapeCast S1x1024 b h) h' (ix2 p q) (ix2 (0 : Fin 1) q) (fun a => by
    match a with
    | ⟨0, _⟩ => rfl
    | ⟨1, _⟩ => rfl)]
  exact shapeCast_apply b h _ _ (by
    rw [Shape.rowMajor_val_three, Shape.rowMajor_val_two]
    show ((0 : ℕ) * 1 + 0) * 1024 + q.val = 0 * 1024 + q.val
    omega)

/-- The layer at an element. -/
theorem pay2_apply (s : Vec Ideal S256x1024 .f32) (w : Vec Ideal S1x1024x1024 .f32) (b : Vec Ideal S1x1x1024 .f32)
    (p : Fin 256) (q : Fin 1024) :
    k0_pay2 (F := Ideal) s w b (ix2 p q) = Cert.Spec.rowLayer (fun k => s (ix2 p k)) (plane w) (row b) q := by
  unfold k0_pay2 Cert.Spec.rowLayer plane row
  show max (matmul dot_S256x1024_S1024x1024_S256x1024_1_0_0_1_n_n none s (shapeCast S1024x1024 w Facts₀.shapeCasts_S1x1024x1024_S1024x1024)
        (constant (F := Ideal) S256x1024 .f32 0x00000000#32) (ix2 p q)
      + broadcastTo S256x1024 (shapeCast S1x1024 b Facts₀.shapeCasts_S1x1x1024_S1x1024) Facts₀.broadcasts_S1x1024_S256x1024 (ix2 p q))
      (Ideal.ofBits .f32 0x00000000#32) = _
  rw [Cert.LibMatmulAt.matmul_zero_apply dot_S256x1024_S1024x1024_S256x1024_1_0_0_1_n_n rfl rfl rfl rfl rfl rfl none s _ p q,
    bias_apply, Ideal.ofBits_zero_f32]
  refine congrArg (fun z => max (z + b (ix3 (0 : Fin 1) (0 : Fin 1) q)) 0) (Finset.sum_congr rfl fun k _ => ?_)
  rw [cast_plane_apply]

/-- The value carried to the next layer is the layer's result. -/
theorem pay3_eq (s : Vec Ideal S256x1024 .f32) (w : Vec Ideal S1x1024x1024 .f32) (b : Vec Ideal S1x1x1024 .f32) :
    k0_pay3 (F := Ideal) s w b = k0_pay2 (F := Ideal) s w b := by
  unfold k0_pay3
  exact shapeCast_self _ _

/-- The first layer's copy of the input block is the input block. -/
theorem pay1_eq (x : Vec Ideal S256x1024 .f32) : k0_pay1 (F := Ideal) x = x := by
  unfold k0_pay1
  exact (shapeCast_self _ _).trans (shapeCast_self _ _)

end Cert.ReferenceIdeal.Layer

end
-- ==== Proof.RefBlocks.lean ====
/-
  The reference's scratch and output block, row by row.

  Point `t` of the 64 treats row block `t / 4` at layer `t % 4`: its input block is rows `256 (t / 4) … + 255` of the
  4096 × 1024 input matrix, its weight plane is plane `t % 4` of the weight stack and its bias row is row `t % 4` of the
  bias stack.  So after the first-layer point the scratch's row `p` is one layer applied to input row `256 (t / 4) + p`,
  after the next two points two and three layers, and at the last point the output block's row is all four.
-/
import proofs.«158575_g2000405746462539_pallasbulk_774_7_alg».proof.Proof.RefBody
import proofs.«158575_g2000405746462539_pallasbulk_774_7_alg».proof.Proof.RefLayer

set_option maxRecDepth 16384

noncomputable section

namespace Cert.ReferenceIdeal.RefValue

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen Cert.ReferenceIdeal.Body Cert.ReferenceIdeal.Layer

variable (m : (ℓ : Loc nD τ sig) → Buf (Elt Ideal) ℓ)

/-- The printed index maps over the grid: the input and output blocks move with `t / 4`, the weight plane and the bias
    row with `t % 4`. -/
theorem idx_facts : ∀ t : Fin cfg0.N,
    win0_0.index t (0 : Fin 2) = t.val / 4 ∧ win0_0.index t (1 : Fin 2) = 0
    ∧ win0_1.index t (0 : Fin 3) = t.val % 4 ∧ win0_1.index t (1 : Fin 3) = 0 ∧ win0_1.index t (2 : Fin 3) = 0
    ∧ win0_2.index t (0 : Fin 3) = t.val % 4 ∧ win0_2.index t (1 : Fin 3) = 0 ∧ win0_2.index t (2 : Fin 3) = 0
    ∧ win0_3.index t (0 : Fin 2) = t.val / 4 ∧ win0_3.index t (1 : Fin 2) = 0 :=
  (by decide +kernel : ∀ t : Fin grid0.N, _)

theorem N64 : cfg0.N = 64 := N_0

/-- The row of the input matrix that row `p` of point `t`'s block is. -/
def rowOf (t : Fin cfg0.N) (p : Fin 256) : Fin 4096 :=
  ⟨256 * (t.val / 4) + p.val, by have := t.isLt; have := N64; have := p.isLt; omega⟩
/-- The layer of point `t`. -/
def layerOf (t : Fin cfg0.N) : Fin 4 := ⟨t.val % 4, Nat.mod_lt _ (by decide)⟩

/-! ## A block read through any array

Stated for an arbitrary array, so that nothing here looks inside the arrays the region finds. -/

/-- Row `p`, column `k` of point `t`'s input block is row `256 (t / 4) + p`, column `k` of the array. -/
theorem blk0_read (A : S4096x1024.Idx → EReal) (t : Fin cfg0.N) (p : Fin 256) (k : Fin 1024) :
    ((cfg0.win 0).blk t).view.read (Elt Ideal) A (ix2 p k) = A (ix2 (rowOf t p) k) := by
  obtain ⟨e0, e1, -⟩ := idx_facts t
  show A (((cfg0.win 0).blk t).view.emb (ix2 p k)) = A (ix2 (rowOf t p) k)
  refine congrArg A (funext fun a => Fin.ext ?_)
  match a with
  | ⟨0, _⟩ => show win0_0.index t (0 : Fin 2) * 256 + 1 * p.val = 256 * (t.val / 4) + p.val; omega
  | ⟨1, _⟩ => show win0_0.index t (1 : Fin 2) * 1024 + 1 * k.val = k.val; omega

/-- Entry `(0, r, q)` of point `t`'s weight block is entry `(t % 4, r, q)` of the stack. -/
theorem blk1_read (A : S4x1024x1024.Idx → EReal) (t : Fin cfg0.N) (r q : Fin 1024) :
    ((cfg0.win 1).blk t).view.read (Elt Ideal) A (ix3 (0 : Fin 1) r q) = A (ix3 (layerOf t) r q) := by
  obtain ⟨-, -, e2, e3, e4, -⟩ := idx_facts t
  show A (((cfg0.win 1).blk t).view.emb (ix3 (0 : Fin 1) r q)) = A (ix3 (layerOf t) r q)
  refine congrArg A (funext fun a => Fin.ext ?_)
  match a with
  | ⟨0, _⟩ => show win0_1.index t (0 : Fin 3) * 1 + 1 * 0 = t.val % 4; omega
  | ⟨1, _⟩ => show win0_1.index t (1 : Fin 3) * 1024 + 1 * r.val = r.val; omega
  | ⟨2, _⟩ => show win0_1.index t (2 : Fin 3) * 1024 + 1 * q.val = q.val; omega

/-- Entry `(0, 0, q)` of point `t`'s bias block is entry `(t % 4, 0, q)` of the stack. -/
theorem blk2_read (A : S4x1x1024.Idx → EReal) (t : Fin cfg0.N) (q : Fin 1024) :
    ((cfg0.win 2).blk t).view.read (Elt Ideal) A (ix3 (0 : Fin 1) (0 : Fin 1) q) = A (ix3 (layerOf t) (0 : Fin 1) q) := by
  obtain ⟨-, -, -, -, -, e5, e6, e7, -⟩ := idx_facts t
  show A (((cfg0.win 2).blk t).view.emb (ix3 (0 : Fin 1) (0 : Fin 1) q)) = A (ix3 (layerOf t) (0 : Fin 1) q)
  refine congrArg A (funext fun a => Fin.ext ?_)
  match a with
  | ⟨0, _⟩ => show win0_2.index t (0 : Fin 3) * 1 + 1 * 0 = t.val % 4; omega
  | ⟨1, _⟩ => show win0_2.index t (1 : Fin 3) * 1 + 1 * 0 = 0; omega
  | ⟨2, _⟩ => show win0_2.index t (2 : Fin 3) * 1024 + 1 * q.val = q.val; omega

/-- Row `p`, column `q` of point `t`'s output block is row `256 (t / 4) + p`, column `q` of the array. -/
theorem blk3_read (A : S4096x1024.Idx → EReal) (t : Fin cfg0.N) (p : Fin 256) (q : Fin 1024) :
    ((cfg0.win 3).blk t).view.read (Elt Ideal) A (ix2 p q) = A (ix2 (rowOf t p) q) := by
  obtain ⟨-, -, -, -, -, -, -, -, e8, e9⟩ := idx_facts t
  show A (((cfg0.win 3).blk t).view.emb (ix2 p q)) = A (ix2 (rowOf t p) q)
  refine congrArg A (funext fun a => Fin.ext ?_)
  match a with
  | ⟨0, _⟩ => show win0_3.index t (0 : Fin 2) * 256 + 1 * p.val = 256 * (t.val / 4) + p.val; omega
  | ⟨1, _⟩ => show win0_3.index t (1 : Fin 2) * 1024 + 1 * q.val = q.val; omega

/-! ## The arrays the region finds -/

/-- The input matrix, the weight stack and the bias stack as the region finds them (what the lines before the region
    left in the three input windows' arrays), and the stacks' planes and rows. -/
def X (c : Dev nD) : S4096x1024.Idx → EReal := V m c (Pipeline.arrRef spec0 0)
def Wall (c : Dev nD) : S4x1024x1024.Idx → EReal := V m c (Pipeline.arrRef spec0 1)
def Ball (c : Dev nD) : S4x1x1024.Idx → EReal := V m c (Pipeline.arrRef spec0 2)
def Wst (c : Dev nD) (l : Fin 4) : Cert.Spec.SW.Idx → EReal := fun j => Wall m c (ix3 l (j 0) (j 1))
def Bst (c : Dev nD) (l : Fin 4) : Cert.Spec.SB.Idx → EReal := fun j => Ball m c (ix3 l (0 : Fin 1) (j 0))

/-- The input block's entry is the matrix's. -/
theorem xblk_apply (c : Dev nD) (t : Fin cfg0.N) (p : Fin 256) (k : Fin 1024) :
    (iblk m c 0 t : S256x1024.Idx → EReal) (ix2 p k) = X m c (ix2 (rowOf t p) k) := by
  unfold iblk X
  exact blk0_read _ t p k

/-- The weight block's plane is the stack's plane of the point's layer. -/
theorem plane_blk (c : Dev nD) (t : Fin cfg0.N) : plane (iblk m c 1 t) = Wst m c (layerOf t) := by
  funext j
  unfold plane Wst iblk Wall
  exact blk1_read _ t (j 0) (j 1)

/-- The bias block's row is the stack's row of the point's layer. -/
theorem row_blk (c : Dev nD) (t : Fin cfg0.N) : row (iblk m c 2 t) = Bst m c (layerOf t) := by
  funext j
  unfold row Bst iblk Ball
  exact blk2_read _ t (j 0)

/-- The input row that row `p` of point `t`'s block is. -/
def inRow (c : Dev nD) (t : Fin cfg0.N) (p : Fin 256) : Fin 1024 → EReal := fun k => X m c (ix2 (rowOf t p) k)

/-- One layer on the scratch's row: the layer of the point on that row. -/
theorem layer_row (c : Dev nD) (t : Fin cfg0.N) (s : Vec Ideal S256x1024 .f32) (p : Fin 256) (q : Fin 1024) :
    k0_pay2 (F := Ideal) s (iblk m c 1 t) (iblk m c 2 t) (ix2 p q)
      = Cert.Spec.rowLayer (fun k => s (ix2 p k)) (Wst m c (layerOf t)) (Bst m c (layerOf t)) q := by
  rw [pay2_apply s (iblk m c 1 t) (iblk m c 2 t) p q, plane_blk, row_blk]

/-- The point before a point that is not a first-layer point treats the same row block at the layer before. -/
def prev (t : Fin cfg0.N) : Fin cfg0.N := ⟨t.val - 1, Nat.lt_of_le_of_lt (Nat.sub_le _ _) t.isLt⟩

theorem rowOf_prev (t : Fin cfg0.N) (h : t.val % 4 ≠ 0) (p : Fin 256) : rowOf (prev t) p = rowOf t p := by
  apply Fin.ext; show 256 * ((t.val - 1) / 4) + p.val = 256 * (t.val / 4) + p.val; omega

/-- After a first-layer point: one layer on the input row. -/
theorem s_first (c : Dev nD) (t : Fin cfg0.N) (h : t.val % 4 = 0) (p : Fin 256) (q : Fin 1024) :
    sAt m c t.val t.isLt (ix2 p q) = Cert.Spec.rowLayer (inRow m c t p) (Wst m c 0) (Bst m c 0) q := by
  have hl : layerOf t = 0 := Fin.ext h
  rw [sAt_first m c t h, pay3_eq, pay1_eq, layer_row, hl]
  exact congrArg (fun r => Cert.Spec.rowLayer r (Wst m c 0) (Bst m c 0) q) (funext fun k => xblk_apply m c t p k)

/-- After the second point of a row block: two layers. -/
theorem s_second (c : Dev nD) (t : Fin cfg0.N) (h : t.val % 4 = 1) (p : Fin 256) (q : Fin 1024) :
    sAt m c t.val t.isLt (ix2 p q)
      = Cert.Spec.rowLayer (Cert.Spec.rowLayer (inRow m c t p) (Wst m c 0) (Bst m c 0)) (Wst m c 1) (Bst m c 1) q := by
  have hl : layerOf t = 1 := Fin.ext h
  rw [sAt_mid m c t (by omega) (by omega), pay3_eq, layer_row, hl]
  refine congrArg (fun r => Cert.Spec.rowLayer r (Wst m c 1) (Bst m c 1) q) (funext fun k => ?_)
  have e := s_first m c (prev t) (by show (t.val - 1) % 4 = 0; omega) p k
  unfold inRow at e ⊢
  rw [rowOf_prev t (by omega)] at e
  exact e

/-- After the third point: three layers. -/
theorem s_third (c : Dev nD) (t : Fin cfg0.N) (h : t.val % 4 = 2) (p : Fin 256) (q : Fin 1024) :
    sAt m c t.val t.isLt (ix2 p q)
      = Cert.Spec.rowLayer (Cert.Spec.rowLayer (Cert.Spec.rowLayer (inRow m c t p) (Wst m c 0) (Bst m c 0)) (Wst m c 1) (Bst m c 1))
          (Wst m c 2) (Bst m c 2) q := by
  have hl : layerOf t = 2 := Fin.ext h
  rw [sAt_mid m c t (by omega) (by omega), pay3_eq, layer_row, hl]
  refine congrArg (fun r => Cert.Spec.rowLayer r (Wst m c 2) (Bst m c 2) q) (funext fun k => ?_)
  have e := s_second m c (prev t) (by show (t.val - 1) % 4 = 1; omega) p k
  unfold inRow at e ⊢
  rw [rowOf_prev t (by omega)] at e
  exact e

/-- At the last point the output block's row is the four layers on the input row. -/
theorem o_last (c : Dev nD) (t : Fin cfg0.N) (h : t.val % 4 = 3) (p : Fin 256) (q : Fin 1024) :
    oAt m c t (ix2 p q)
      = Cert.Spec.rowMlp (inRow m c t p) (Wst m c 0) (Bst m c 0) (Wst m c 1) (Bst m c 1) (Wst m c 2) (Bst m c 2) (Wst m c 3) (Bst m c 3) q := by
  have hl : layerOf t = 3 := Fin.ext h
  unfold oAt Cert.Spec.rowMlp
  rw [layer_row, hl]
  refine congrArg (fun r => Cert.Spec.rowLayer r (Wst m c 3) (Bst m c 3) q) (funext fun k => ?_)
  have e := s_third m c (prev t) (by show (t.val - 1) % 4 = 2; omega) p k
  unfold inRow at e ⊢
  rw [rowOf_prev t (by omega)] at e
  exact e

end Cert.ReferenceIdeal.RefValue

end
-- ==== Proof.RefFinal.lean ====
/-
  The reference's output array after the run.

  Each row block's output block is written back once, after its last-layer point, and those sixteen blocks tile the
  4096 × 1024 output; so the output array ends holding, at row `r`, the four layers applied to input row `r`, and the
  program's result is that array read as 32 × 128 × 1024.
-/
import proofs.«158575_g2000405746462539_pallasbulk_774_7_alg».proof.Proof.RefBlocks
import Idealize.ShloMosaic.Lib.StableHlo.Run

set_option maxRecDepth 16384

noncomputable section

namespace Cert.ReferenceIdeal.RefValue

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen Cert.ReferenceIdeal.Body Cert.ReferenceIdeal.Layer

variable (m : (ℓ : Loc nD τ sig) → Buf (Elt Ideal) ℓ) (ρ : Dev nD → PrngReg)

/-- The output matrix: the network on the rows of the input matrix, with the stacks' planes and rows. -/
def outRows (c : Dev nD) : S4096x1024.Idx → EReal :=
  Cert.Spec.mlpRows (X m c) (Wst m c 0) (Bst m c 0) (Wst m c 1) (Bst m c 1) (Wst m c 2) (Bst m c 2) (Wst m c 3) (Bst m c 3)

/-- The output window's blocks are whole: what is written back is all of what the body left. -/
theorem cut_whole (t : Fin cfg0.N) (O : Vec Ideal S256x1024 .f32) : (cfg0.win 3).cut (grid0.coords t) O = O := rfl

/-- What a last-layer point writes back is its block of the output matrix. -/
theorem flushed_eq (c : Dev nD) (t : Fin cfg0.N) (hf : (cfg0.win 3).flush t = true) :
    (dats m 0 c).flushed 3 t = ((cfg0.win 3).blk t).view.read (Elt Ideal) (outRows m c) := by
  have h3 : t.val % 4 = 3 := (flush0_3 t).mp hf
  show (cfg0.win 3).cut (grid0.coords t) ((dats m 0 c).after 3 t) = _
  rw [after3, cut_whole]
  funext j
  obtain ⟨p, q, rfl⟩ : ∃ (p : Fin 256) (q : Fin 1024), j = ix2 p q := ⟨j 0, j 1, eq_ix2 j⟩
  rw [blk3_read (outRows m c) t p q, o_last m c t h3 p q]
  unfold outRows inRow
  exact (Cert.Spec.mlpRows_apply _ _ _ _ _ _ _ _ _ (rowOf t p) q).symm

/-- An index of the output array is in point `t`'s block iff each coordinate is in the block's range. -/
theorem mem_blk (t : Fin cfg0.N) (i : S4096x1024.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v29).slice (win0_3.rect t)).set ↔ _
  rw [View.set_slice_whole, Rect.mem_set_unit]
  exact Iff.rfl

/-- Every index is in the block of its row block's last-layer point. -/
theorem cover (i : S4096x1024.Idx) : ∃ t : Fin cfg0.N, (cfg0.win 3).flush t = true ∧ i ∈ ((cfg0.win 3).blk t).view.set := by
  have hi0 : (i 0).val < 4096 := (i 0).isLt
  have hi1 : (i 1).val < 1024 := (i 1).isLt
  have hlt : 4 * ((i 0).val / 256) + 3 < cfg0.N := by have := N64; omega
  obtain ⟨-, -, -, -, -, -, -, -, e8, e9⟩ := idx_facts ⟨4 * ((i 0).val / 256) + 3, hlt⟩
  have e8' : win0_3.index ⟨4 * ((i 0).val / 256) + 3, hlt⟩ (0 : Fin 2) = (4 * ((i 0).val / 256) + 3) / 4 := e8
  refine ⟨⟨4 * ((i 0).val / 256) + 3, hlt⟩, (flush0_3 _).mpr (by show (4 * ((i 0).val / 256) + 3) % 4 = 3; omega), ?_⟩
  rw [mem_blk]
  intro a
  match a with
  | ⟨0, _⟩ =>
    show win0_3.index ⟨4 * ((i 0).val / 256) + 3, hlt⟩ (0 : Fin 2) * 256 ≤ (i 0).val
      ∧ (i 0).val < win0_3.index ⟨4 * ((i 0).val / 256) + 3, hlt⟩ (0 : Fin 2) * 256 + 256
    omega
  | ⟨1, _⟩ =>
    show win0_3.index ⟨4 * ((i 0).val / 256) + 3, hlt⟩ (1 : Fin 2) * 1024 ≤ (i 1).val
      ∧ (i 1).val < win0_3.index ⟨4 * ((i 0).val / 256) + 3, hlt⟩ (1 : Fin 2) * 1024 + 1024
    omega

/-- The output array after the run. -/
theorem final (c : Dev nD) : (dats m 0 c).arrAt 3 cfg0.N = outRows m c :=
  (dats m 0 c).arrAt_eq_of_cover 3 (outRows m c) (fun t hf => flushed_eq m c t hf) cover

/-- The program's result after the line that follows the region: the output matrix read as 32 × 128 × 1024. -/
theorem tail_eq (c : Dev nD) :
    Pipeline.afterTail₀ cfgs (dats m) 0 (V0 m) [hostOps1] c main_v30
      = shapeCast S32x128x1024 (outRows m c) Facts₀.shapeCasts_S4096x1024_S32x128x1024 := by
  unfold Pipeline.afterTail₀
  show StableHlo.after hostOps1 _ (Proc.devRef .tc main_v30) = _
  after_results
  have e := (Pipeline.withArrays_arr spec0 launch0.win.arr_inj c (V0 m c) (fun w => (dats m 0 c).arrAt w cfg0.N) 3).trans (final m c)
  exact congrArg (fun A : S4096x1024.Idx → EReal => shapeCast S32x128x1024 A Facts₀.shapeCasts_S4096x1024_S32x128x1024) e

end Cert.ReferenceIdeal.RefValue

end
-- ==== Proof.LibScatterSet.lean ====
import Idealize.ShloMosaic.PureOps

/-!
# Reading a scatter that overwrites

`Host.scatter d f x idx upd` is a left fold over the update indices in row-major order; with
`f = fun _ b => b` each step that lands inside the operand overwrites one element by the update's.
Two facts about one element `i` of the result:

* if exactly one update index lands at `i`, the result there is that update's element;
* if no update index lands at `i`, the result there is the operand's element.

Both are proved by induction on the list the fold runs over, for an arbitrary accumulator.
-/

namespace Cert.LibScatterSet

open Idealize.ShloMosaic

variable {α : Type} {s si u : Shape} {w : Nat}

/-- One step of the overwriting scatter: update number `n` (row-major) replaces the element it lands
    at, when it lands inside the operand, and changes nothing otherwise. -/
def step (d : ScatterDims s si u) (idx : IVec si w) (upd : u.Idx → α) (r : s.Idx → α) (n : Fin u.numel) :
    s.Idx → α :=
  match d.resultIdx? (u.rowMajor.symm n) idx with
  | some i => fun i' => if i' = i then (fun (_ : α) (b : α) => b) (r i) (upd (u.rowMajor.symm n)) else r i'
  | none => r

/-- The overwriting scatter is the left fold of `step` over all update numbers. -/
theorem scatter_eq_foldl (d : ScatterDims s si u) (x : s.Idx → α) (idx : IVec si w) (upd : u.Idx → α) :
    Host.scatter d (fun _ b => b) x idx upd = (List.finRange u.numel).foldl (step d idx upd) x := rfl

/-- A step whose update lands at `i` leaves the update's element at `i`. -/
theorem step_hit (d : ScatterDims s si u) (idx : IVec si w) (upd : u.Idx → α) (r : s.Idx → α) (n : Fin u.numel)
    (i : s.Idx) (h : d.resultIdx? (u.rowMajor.symm n) idx = some i) :
    step d idx upd r n i = upd (u.rowMajor.symm n) := by
  unfold step
  rw [h]
  simp

/-- A step whose update does not land at `i` leaves the element at `i` as it was. -/
theorem step_miss (d : ScatterDims s si u) (idx : IVec si w) (upd : u.Idx → α) (r : s.Idx → α) (n : Fin u.numel)
    (i : s.Idx) (h : d.resultIdx? (u.rowMajor.symm n) idx ≠ some i) :
    step d idx upd r n i = r i := by
  unfold step
  cases hr : d.resultIdx? (u.rowMajor.symm n) idx with
  | none => rfl
  | some i0 =>
    have hne : i ≠ i0 := fun e => h (by rw [hr, e])
    simp [hne]

/-- Folding steps none of which lands at `i` leaves the element at `i` as it was. -/
theorem foldl_miss (d : ScatterDims s si u) (idx : IVec si w) (upd : u.Idx → α) (i : s.Idx)
    (l : List (Fin u.numel)) (h : ∀ n ∈ l, d.resultIdx? (u.rowMajor.symm n) idx ≠ some i) (acc : s.Idx → α) :
    l.foldl (step d idx upd) acc i = acc i := by
  induction l generalizing acc with
  | nil => rfl
  | cons a l ih =>
    rw [List.foldl_cons, ih (fun n hn => h n (List.mem_cons_of_mem _ hn))]
    exact step_miss d idx upd acc a i (h a List.mem_cons_self)

/-- Folding steps of which only number `n0` lands at `i`: when `n0` is still in the list, or the
    accumulator already holds update `n0`'s element at `i`, the result holds it at `i`. -/
theorem foldl_hit (d : ScatterDims s si u) (idx : IVec si w) (upd : u.Idx → α) (i : s.Idx) (n0 : Fin u.numel)
    (h0 : d.resultIdx? (u.rowMajor.symm n0) idx = some i)
    (l : List (Fin u.numel)) (huniq : ∀ n ∈ l, d.resultIdx? (u.rowMajor.symm n) idx = some i → n = n0)
    (acc : s.Idx → α) (hinv : n0 ∈ l ∨ acc i = upd (u.rowMajor.symm n0)) :
    l.foldl (step d idx upd) acc i = upd (u.rowMajor.symm n0) := by
  induction l generalizing acc with
  | nil =>
    rcases hinv with hmem | hacc
    · exact absurd hmem (List.not_mem_nil)
    · exact hacc
  | cons a l ih =>
    rw [List.foldl_cons]
    apply ih (fun n hn => huniq n (List.mem_cons_of_mem _ hn))
    by_cases ha : a = n0
    · right
      rw [ha]
      exact step_hit d idx upd acc n0 i h0
    · have hmiss : d.resultIdx? (u.rowMajor.symm a) idx ≠ some i := fun e => ha (huniq a List.mem_cons_self e)
      rcases hinv with hmem | hacc
      · left
        rcases List.mem_cons.1 hmem with e | hm
        · exact absurd e.symm ha
        · exact hm
      · right
        rw [step_miss d idx upd acc a i hmiss]
        exact hacc

/-- An update index `j` lands at `i` exactly when, on every operand axis, its window's start plus its window
    coordinate is `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i hb
      have e := Option.some.inj h
      have ea : (i a).val = (d.start j idx a + (d.window j a : Int)).toNat := by rw [← e]
      have := (hb a).1
      omega
    · exact absurd h (by simp)
  · intro h
    have hb : ∀ a, 0 ≤ d.start j idx a + (d.window j a : Int) ∧ d.start j idx a + (d.window j a : Int) < s.size a := by
      intro a
      rw [h a]
      have := (i a).isLt
      omega
    rw [dif_pos hb]
    congr 1
    funext a
    apply Fin.ext
    show (d.start j idx a + (d.window j a : Int)).toNat = (i a).val
    rw [h a]
    exact Int.toNat_natCast _

/-- (hit) If update index `j` lands at `i` and it is the only update index that does, the overwriting
    scatter holds the update's element `upd j` at `i`. -/
theorem scatter_set_hit (d : ScatterDims s si u) (x : s.Idx → α) (idx : IVec si w) (upd : u.Idx → α)
    (i : s.Idx) (j : u.Idx) (hj : d.resultIdx? j idx = some i)
    (huniq : ∀ j', d.resultIdx? j' idx = some i → j' = j) :
    Host.scatter d (fun _ b => b) x idx upd i = upd j := by
  rw [scatter_eq_foldl]
  have h0 : d.resultIdx? (u.rowMajor.symm (u.rowMajor j)) idx = some i := by
    rw [Equiv.symm_apply_apply]; exact hj
  have := foldl_hit d idx upd i (u.rowMajor j) h0 (List.finRange u.numel)
    (fun n _ hn => by
      have e := huniq _ hn
      rw [← e, Equiv.apply_symm_apply])
    x (Or.inl (List.mem_finRange _))
  rw [this, Equiv.symm_apply_apply]

/-- (miss) If no update index lands at `i`, the overwriting scatter holds the operand's element at `i`. -/
theorem scatter_set_miss (d : ScatterDims s si u) (x : s.Idx → α) (idx : IVec si w) (upd : u.Idx → α)
    (i : s.Idx) (hnone : ∀ j, d.resultIdx? j idx ≠ some i) :
    Host.scatter d (fun _ b => b) x idx upd i = x i := by
  rw [scatter_eq_foldl]
  exact foldl_miss d idx upd i _ (fun n _ => hnone _) x

end Cert.LibScatterSet
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.RefArrays.lean ====
import proofs.«158575_g2000405746462539_pallasbulk_774_7_alg».proof.Proof.Gen.ReferenceIdeal.Frame
import Idealize.ShloMosaic.Lib.ValueIdx
import Idealize.ShloMosaic.Lib.StableHlo.Run
import proofs.«158575_g2000405746462539_pallasbulk_774_7_alg».proof.Proof.LibScatterSet
import proofs.«158575_g2000405746462539_pallasbulk_774_7_alg».proof.Proof.LibColumn

/-!
# The arrays the reference builds before its region

Before its one region the reference program builds three arrays out of its nine arguments, each by
overwriting scatters into an array of zeros:

* the rows: the whole `[4096, 1024]` array is overwritten by the reshaped first argument;
* the stack of weights `[4, 1024, 1024]`: plane `l` is overwritten by weight matrix `l`, for `l = 0, 1, 2, 3` in turn;
* the stack of biases `[4, 1, 1024]`: row `(l, 0, ·)` is overwritten by bias `l`, for `l = 0, 1, 2, 3` in turn.

For each of the three scatter records we compute where an update index lands (the window's start is read off
the index tensor on the scattered axes and is zero elsewhere; the window coordinate is the update's on the
window axes and zero on the inserted ones), and read the scatter at an index with the two general facts of
`LibScatterSet`: an element on which exactly one update lands holds that update, an element on which none
lands is unchanged. A later scatter of a chain leaves the planes of the earlier ones alone.
-/

-- the valuations after forty-five operations are deeply nested terms
set_option maxRecDepth 16384

noncomputable section

namespace Cert.RefArrays

open Cert.ReferenceIdeal Cert.ReferenceIdeal.Gen Idealize.ShloMosaic Idealize.ShloMosaic.ValueIdx
open Cert.LibScatterSet
open Idealize.ShloMosaic.StableHlo Idealize.ShloMosaic.TcCoe

/-! ## The record that overwrites the whole array -/

/-- The scatter record of the rows: both axes are window axes, nothing is scattered. -/
abbrev dA := scatter_S4096x1024_S0_S4096x1024_01_n_n_0

theorem dA_start {w : Nat} (j : S4096x1024.Idx) (idx : IVec S0 w) (a : Fin 2) : dA.start j idx a = 0 :=
  match a with
  | ⟨0, _⟩ => rfl
  | ⟨1, _⟩ => rfl
theorem dA_window (j : S4096x1024.Idx) (a : Fin 2) : dA.window j a = (j a).val :=
  match a with
  | ⟨0, _⟩ => rfl
  | ⟨1, _⟩ => rfl

/-- Update index `j` lands at `j`, and nowhere else. -/
theorem dA_lands_iff {w : Nat} (j : S4096x1024.Idx) (idx : IVec S0 w) (i : S4096x1024.Idx) :
    dA.resultIdx? j idx = some i ↔ j = i := by
  rw [resultIdx?_eq_some_iff]
  constructor
  · intro H
    funext a
    have Ha := H a
    rw [dA_start, dA_window] at Ha
    exact Fin.ext (by omega)
  · rintro rfl a
    rw [dA_start, dA_window]
    omega

/-- With both axes window axes and no scattered axis, the overwriting scatter is the update. -/
theorem scatterA_eq {α : Type} {w : Nat} (x : S4096x1024.Idx → α) (idx : IVec S0 w) (upd : S4096x1024.Idx → α) :
    Host.scatter dA (fun _ b => b) x idx upd = upd := by
  funext i
  refine scatter_set_hit dA x idx upd i i ((dA_lands_iff i idx i).2 rfl) (fun j' hj' => ?_)
  exact (dA_lands_iff j' idx i).1 hj'

/-! ## The record that overwrites one plane of the stack of weights -/

/-- The scatter record of the weights: the leading axis is scattered (and inserted), the other two are the
    window. -/
abbrev dW := scatter_S4x1024x1024_S1_S1024x1024_01_0_0_0

theorem dW_window0 (j : S1024x1024.Idx) : dW.window j (0 : Fin 3) = 0 := rfl
theorem dW_window1 (j : S1024x1024.Idx) : dW.window j (1 : Fin 3) = (j 0).val := rfl
theorem dW_window2 (j : S1024x1024.Idx) : dW.window j (2 : Fin 3) = (j 1).val := rfl
theorem dW_start1 {w : Nat} (j : S1024x1024.Idx) (idx : IVec S1 w) : dW.start j idx (1 : Fin 3) = 0 := rfl
theorem dW_start2 {w : Nat} (j : S1024x1024.Idx) (idx : IVec S1 w) : dW.start j idx (2 : Fin 3) = 0 := rfl
/-- On the scattered axis the window starts at the index tensor's entry (here the same at every index). -/
theorem dW_start0 {w : Nat} (j : S1024x1024.Idx) (idx : IVec S1 w) (L : BitVec w) (h : ∀ k, idx k = L) :
    dW.start j idx (0 : Fin 3) = L.toInt := by
  unfold ScatterDims.start
  rw [dif_pos (by decide)]
  rw [h]

/-- Update index `(r, q)` lands at `(L, r, q)`, `L` the index tensor's entry. -/
theorem dW_lands_iff {w : Nat} (j : S1024x1024.Idx) (idx : IVec S1 w) (L : BitVec w) (h : ∀ k, idx k = L)
    (i : S4x1024x1024.Idx) :
    dW.resultIdx? j idx = some i ↔
      (L.toInt = ((i 0).val : Int) ∧ (j 0).val = (i 1).val ∧ (j 1).val = (i 2).val) := by
  rw [resultIdx?_eq_some_iff]
  constructor
  · intro H
    have H0 := H (0 : Fin 3)
    have H1 := H (1 : Fin 3)
    have H2 := H (2 : Fin 3)
    rw [dW_start0 j idx L h, dW_window0] at H0
    rw [dW_start1, dW_window1] at H1
    rw [dW_start2, dW_window2] at H2
    exact ⟨by omega, by omega, by omega⟩
  · rintro ⟨H0, H1, H2⟩ a
    match a with
    | ⟨0, _⟩ =>
      show dW.start j idx (0 : Fin 3) + (dW.window j (0 : Fin 3) : Int) = ((i 0).val : Int)
      rw [dW_start0 j idx L h, dW_window0]; omega
    | ⟨1, _⟩ =>
      show dW.start j idx (1 : Fin 3) + (dW.window j (1 : Fin 3) : Int) = ((i 1).val : Int)
      rw [dW_start1, dW_window1]; omega
    | ⟨2, _⟩ =>
      show dW.start j idx (2 : Fin 3) + (dW.window j (2 : Fin 3) : Int) = ((i 2).val : Int)
      rw [dW_start2, dW_window2]; omega

/-- The plane the index tensor names is overwritten by the update. -/
theorem scatterW_hit {α : Type} {w : Nat} (x : S4x1024x1024.Idx → α) (idx : IVec S1 w) (upd : S1024x1024.Idx → α)
    (L : BitVec w) (h : ∀ k, idx k = L) (l : Fin 4) (hl : L.toInt = (l.val : Int)) (r q : Fin 1024) :
    Host.scatter dW (fun _ b => b) x idx upd (ix3 l r q) = upd (ix2 r q) := by
  refine scatter_set_hit dW x idx upd (ix3 l r q) (ix2 r q) ?_ (fun j' hj' => ?_)
  · rw [dW_lands_iff _ _ L h]
    exact ⟨hl, rfl, rfl⟩
  · rw [dW_lands_iff _ _ L h] at hj'
    obtain ⟨_, h1, h2⟩ := hj'
    have e0 : j' 0 = r := Fin.ext h1
    have e1 : j' 1 = q := Fin.ext h2
    exact (eq_ix2 j').trans (by rw [e0, e1]; rfl)

/-- Every other plane is left as it was. -/
theorem scatterW_miss {α : Type} {w : Nat} (x : S4x1024x1024.Idx → α) (idx : IVec S1 w) (upd : S1024x1024.Idx → α)
    (L : BitVec w) (h : ∀ k, idx k = L) (l : Fin 4) (hl : L.toInt ≠ (l.val : Int)) (r q : Fin 1024) :
    Host.scatter dW (fun _ b => b) x idx upd (ix3 l r q) = x (ix3 l r q) := by
  refine scatter_set_miss dW x idx upd (ix3 l r q) (fun j hj => ?_)
  rw [dW_lands_iff _ _ L h] at hj
  exact hl hj.1

/-! ## The record that overwrites one row of the stack of biases -/

/-- The scatter record of the biases: the two leading axes are scattered (and inserted), the last is the
    window. -/
abbrev dB := scatter_S4x1x1024_S2_S1024_0_01_01_0

theorem dB_window0 (j : S1024.Idx) : dB.window j (0 : Fin 3) = 0 := rfl
theorem dB_window1 (j : S1024.Idx) : dB.window j (1 : Fin 3) = 0 := rfl
theorem dB_window2 (j : S1024.Idx) : dB.window j (2 : Fin 3) = (j 0).val := rfl
theorem dB_start2 {w : Nat} (j : S1024.Idx) (idx : IVec S2 w) : dB.start j idx (2 : Fin 3) = 0 := rfl
/-- On the first scattered axis the window starts at the index tensor's entry `0`. -/
theorem dB_start0 {w : Nat} (j : S1024.Idx) (idx : IVec S2 w) (L0 : BitVec w)
    (h0 : ∀ k : S2.Idx, (k 0).val = 0 → idx k = L0) : dB.start j idx (0 : Fin 3) = L0.toInt := by
  unfold ScatterDims.start
  rw [dif_pos (by decide)]
  exact congrArg BitVec.toInt (h0 _ (by rfl))
/-- On the second scattered axis it starts at the index tensor's entry `1`. -/
theorem dB_start1 {w : Nat} (j : S1024.Idx) (idx : IVec S2 w) (L1 : BitVec w)
    (h1 : ∀ k : S2.Idx, (k 0).val = 1 → idx k = L1) : dB.start j idx (1 : Fin 3) = L1.toInt := by
  unfold ScatterDims.start
  rw [dif_pos (by decide)]
  exact congrArg BitVec.toInt (h1 _ (by rfl))

/-- Update index `q` lands at `(L0, L1, q)`, `L0`, `L1` the index tensor's two entries. -/
theorem dB_lands_iff {w : Nat} (j : S1024.Idx) (idx : IVec S2 w) (L0 L1 : BitVec w)
    (h0 : ∀ k : S2.Idx, (k 0).val = 0 → idx k = L0) (h1 : ∀ k : S2.Idx, (k 0).val = 1 → idx k = L1)
    (i : S4x1x1024.Idx) :
    dB.resultIdx? j idx = some i ↔
      (L0.toInt = ((i 0).val : Int) ∧ L1.toInt = ((i 1).val : Int) ∧ (j 0).val = (i 2).val) := by
  rw [resultIdx?_eq_some_iff]
  constructor
  · intro H
    have H0 := H (0 : Fin 3)
    have H1 := H (1 : Fin 3)
    have H2 := H (2 : Fin 3)
    rw [dB_start0 j idx L0 h0, dB_window0] at H0
    rw [dB_start1 j idx L1 h1, dB_window1] at H1
    rw [dB_start2, dB_window2] at H2
    exact ⟨by omega, by omega, by omega⟩
  · rintro ⟨H0, H1, H2⟩ a
    match a with
    | ⟨0, _⟩ =>
      show dB.start j idx (0 : Fin 3) + (dB.window j (0 : Fin 3) : Int) = ((i 0).val : Int)
      rw [dB_start0 j idx L0 h0, dB_window0]; omega
    | ⟨1, _⟩ =>
      show dB.start j idx (1 : Fin 3) + (dB.window j (1 : Fin 3) : Int) = ((i 1).val : Int)
      rw [dB_start1 j idx L1 h1, dB_window1]; omega
    | ⟨2, _⟩ =>
      show dB.start j idx (2 : Fin 3) + (dB.window j (2 : Fin 3) : Int) = ((i 2).val : Int)
      rw [dB_start2, dB_window2]; omega

/-- The row the index tensor names is overwritten by the update. -/
theorem scatterB_hit {α : Type} {w : Nat} (x : S4x1x1024.Idx → α) (idx : IVec S2 w) (upd : S1024.Idx → α)
    (L0 L1 : BitVec w) (h0 : ∀ k : S2.Idx, (k 0).val = 0 → idx k = L0) (h1 : ∀ k : S2.Idx, (k 0).val = 1 → idx k = L1)
    (l : Fin 4) (hl0 : L0.toInt = (l.val : Int)) (hl1 : L1.toInt = 0) (q : Fin 1024) :
    Host.scatter dB (fun _ b => b) x idx upd (ix3 l (0 : Fin 1) q) = upd (ix1 q) := by
  refine scatter_set_hit dB x idx upd (ix3 l (0 : Fin 1) q) (ix1 q) ?_ (fun j' hj' => ?_)
  · rw [dB_lands_iff _ _ L0 L1 h0 h1]
    exact ⟨hl0, hl1, rfl⟩
  · rw [dB_lands_iff _ _ L0 L1 h0 h1] at hj'
    obtain ⟨_, _, h2⟩ := hj'
    have e0 : j' 0 = q := Fin.ext h2
    exact (eq_ix1 j').trans (by rw [e0]; rfl)

/-- Every other row is left as it was. -/
theorem scatterB_miss {α : Type} {w : Nat} (x : S4x1x1024.Idx → α) (idx : IVec S2 w) (upd : S1024.Idx → α)
    (L0 L1 : BitVec w) (h0 : ∀ k : S2.Idx, (k 0).val = 0 → idx k = L0) (h1 : ∀ k : S2.Idx, (k 0).val = 1 → idx k = L1)
    (l : Fin 4) (hl0 : L0.toInt ≠ (l.val : Int)) (q : Fin 1024) :
    Host.scatter dB (fun _ b => b) x idx upd (ix3 l (0 : Fin 1) q) = x (ix3 l (0 : Fin 1) q) := by
  refine scatter_set_miss dB x idx upd (ix3 l (0 : Fin 1) q) (fun j hj => ?_)
  rw [dB_lands_iff _ _ L0 L1 h0 h1] at hj
  exact hl0 hj.1

/-! ## The index tensors -/

/-- A scalar constant stretched to one entry reads the constant. -/
theorem idx1_apply (L : BitVec 32) (k : S1.Idx) :
    (broadcastInDim S1 ![] bcast_S_S1 (constantI S_ 32 L) : IVec S1 32) k = L :=
  Cert.LibColumn.bcastInDim_scalar_apply _ _ k ix0

/-- The pair of two one-entry tensors reads the first at entry `0`. -/
theorem idx2_apply0 (a b : IVec S1 32) (La : BitVec 32) (ha : ∀ k, a k = La) (k : S2.Idx) (hk : (k 0).val = 0) :
    (concatenate S2 0 [⟨S1, a⟩, ⟨S1, b⟩] concatenates_S1_S1_S2_d0 : IVec S2 32) k = La := by
  refine (concatenate_pair_apply_left (0 : Fin S2.rank) a b concatenates_S1_S1_S2_d0 k rfl (ix1 (0 : Fin 1))
    (fun b' => ?_)).trans (ha _)
  match b' with
  | ⟨0, _⟩ => exact hk.symm

/-- The pair of two one-entry tensors reads the second at entry `1`. -/
theorem idx2_apply1 (a b : IVec S1 32) (Lb : BitVec 32) (hb : ∀ k, b k = Lb) (k : S2.Idx) (hk : (k 0).val = 1) :
    (concatenate S2 0 [⟨S1, a⟩, ⟨S1, b⟩] concatenates_S1_S1_S2_d0 : IVec S2 32) k = Lb := by
  refine (concatenate_pair_apply_right (0 : Fin S2.rank) a b concatenates_S1_S1_S2_d0 k rfl rfl (ix1 (0 : Fin 1))
    (fun b' hne => ?_) ?_).trans (hb _)
  · match b', hne with
    | ⟨0, _⟩, hne => exact absurd rfl hne
  · show 0 + 1 = (k 0).val
    omega

/-! ## The three arrays as the region finds them -/

variable (m : (ℓ : Loc nD τ sig) → Buf (Elt Ideal) ℓ) (c : Dev nD)

/-- The array of zeros the weights are written into. -/
abbrev zerosW : S4x1024x1024.Idx → EReal :=
  broadcastInDim S4x1024x1024 ![] bcast_S_S4x1024x1024 (constant (F := Ideal) S_ .f32 0x00000000#32)
/-- The array of zeros the biases are written into. -/
abbrev zerosB : S4x1x1024.Idx → EReal :=
  broadcastInDim S4x1x1024 ![] bcast_S_S4x1x1024 (constant (F := Ideal) S_ .f32 0x00000000#32)
/-- The one-entry index tensor holding `L`. -/
abbrev idx1 (L : BitVec 32) : IVec S1 32 := broadcastInDim S1 ![] bcast_S_S1 (constantI S_ 32 L)
/-- The two-entry index tensor holding `(L, 0)`. -/
abbrev idx2 (L : BitVec 32) : IVec S2 32 :=
  concatenate S2 0 [⟨S1, idx1 L⟩, ⟨S1, idx1 0#32⟩] concatenates_S1_S1_S2_d0

theorem idx2_at0 (L : BitVec 32) : ∀ k : S2.Idx, (k 0).val = 0 → idx2 L k = L :=
  fun k hk => idx2_apply0 _ _ L (idx1_apply L) k hk
theorem idx2_at1 (L : BitVec 32) : ∀ k : S2.Idx, (k 0).val = 1 → idx2 L k = 0#32 :=
  fun k hk => idx2_apply1 _ _ 0#32 (idx1_apply 0#32) k hk

/-- Two overwriting scatters of biases agree when their operands, the two halves of their index tensors and
    their updates do. -/
theorem scatterB_congr {x x' : S4x1x1024.Idx → EReal} {a a' b b' : IVec S1 32} {u u' : S1024.Idx → EReal}
    (hx : x = x') (ha : a = a') (hb : b = b') (hu : u = u') :
    Host.scatter dB (fun _ b => b) x (concatenate S2 0 [⟨S1, a⟩, ⟨S1, b⟩] concatenates_S1_S1_S2_d0) u
      = Host.scatter dB (fun _ b => b) x' (concatenate S2 0 [⟨S1, a'⟩, ⟨S1, b'⟩] concatenates_S1_S1_S2_d0) u' := by
  subst hx ha hb hu; rfl

/-- The rows as the region finds them: the first argument, reshaped. -/
theorem rows_eq : (Gen.V (F := Ideal) m c main_v2 : S4096x1024.Idx → EReal)
    = shapeCast S4096x1024 (m ((c : Thread nD τ).loc main_arg0) : S32x128x1024.Idx → EReal)
        shapeCasts_S32x128x1024_S4096x1024 := by
  show StableHlo.after hostOps0 (fun b => m (c, b)) (Proc.devRef .tc main_v2) = _
  after_results_simp
  rw [scatterA_eq]
  rfl

set_option maxHeartbeats 1000000 in
/-- The stack of weights as the region finds it: four overwriting scatters into zeros, one plane each. -/
theorem weights_chain : (Gen.V (F := Ideal) m c main_v24 : S4x1024x1024.Idx → EReal)
    = Host.scatter dW (fun _ b => b)
        (Host.scatter dW (fun _ b => b)
          (Host.scatter dW (fun _ b => b)
            (Host.scatter dW (fun _ b => b) zerosW (idx1 0#32)
              (m ((c : Thread nD τ).loc main_arg1) : S1024x1024.Idx → EReal))
            (idx1 1#32) (m ((c : Thread nD τ).loc main_arg3) : S1024x1024.Idx → EReal))
          (idx1 2#32) (m ((c : Thread nD τ).loc main_arg5) : S1024x1024.Idx → EReal))
        (idx1 3#32) (m ((c : Thread nD τ).loc main_arg7) : S1024x1024.Idx → EReal) := by
  show StableHlo.after hostOps0 (fun b => m (c, b)) (Proc.devRef .tc main_v24) = _
  after_results_simp

set_option maxHeartbeats 2000000 in
/-- The stack of biases as the region finds it: four overwriting scatters into zeros, one row each. -/
theorem biases_chain : (Gen.V (F := Ideal) m c main_v28 : S4x1x1024.Idx → EReal)
    = Host.scatter dB (fun _ b => b)
        (Host.scatter dB (fun _ b => b)
          (Host.scatter dB (fun _ b => b)
            (Host.scatter dB (fun _ b => b) zerosB (idx2 0#32)
              (m ((c : Thread nD τ).loc main_arg2) : S1024.Idx → EReal))
            (idx2 1#32) (m ((c : Thread nD τ).loc main_arg4) : S1024.Idx → EReal))
          (idx2 2#32) (m ((c : Thread nD τ).loc main_arg6) : S1024.Idx → EReal))
        (idx2 3#32) (m ((c : Thread nD τ).loc main_arg8) : S1024.Idx → EReal) := by
  show StableHlo.after hostOps0 (fun b => m (c, b)) (Proc.devRef .tc main_v28) = _
  after_results_simp
  refine scatterB_congr (scatterB_congr (scatterB_congr (scatterB_congr rfl ?_ ?_ rfl) ?_ ?_ rfl) ?_ ?_ rfl) ?_ ?_ rfl
  all_goals after_results_simp

/-- Plane `0` of the stack of weights is the first weight matrix. -/
theorem weights0_apply (r q : Fin 1024) :
    (Gen.V (F := Ideal) m c main_v24 : S4x1024x1024.Idx → EReal) (ix3 (0 : Fin 4) r q)
      = (m ((c : Thread nD τ).loc main_arg1) : S1024x1024.Idx → EReal) (ix2 r q) := by
  rw [weights_chain]
  exact (scatterW_miss _ _ _ 3#32 (idx1_apply _) 0 (by decide) r q).trans
    ((scatterW_miss _ _ _ 2#32 (idx1_apply _) 0 (by decide) r q).trans
      ((scatterW_miss _ _ _ 1#32 (idx1_apply _) 0 (by decide) r q).trans
        (scatterW_hit _ _ _ 0#32 (idx1_apply _) 0 (by decide) r q)))

/-- Plane `1` is the second weight matrix. -/
theorem weights1_apply (r q : Fin 1024) :
    (Gen.V (F := Ideal) m c main_v24 : S4x1024x1024.Idx → EReal) (ix3 (1 : Fin 4) r q)
      = (m ((c : Thread nD τ).loc main_arg3) : S1024x1024.Idx → EReal) (ix2 r q) := by
  rw [weights_chain]
  exact (scatterW_miss _ _ _ 3#32 (idx1_apply _) 1 (by decide) r q).trans
    ((scatterW_miss _ _ _ 2#32 (idx1_apply _) 1 (by decide) r q).trans
      (scatterW_hit _ _ _ 1#32 (idx1_apply _) 1 (by decide) r q))

/-- Plane `2` is the third weight matrix. -/
theorem weights2_apply (r q : Fin 1024) :
    (Gen.V (F := Ideal) m c main_v24 : S4x1024x1024.Idx → EReal) (ix3 (2 : Fin 4) r q)
      = (m ((c : Thread nD τ).loc main_arg5) : S1024x1024.Idx → EReal) (ix2 r q) := by
  rw [weights_chain]
  exact (scatterW_miss _ _ _ 3#32 (idx1_apply _) 2 (by decide) r q).trans
    (scatterW_hit _ _ _ 2#32 (idx1_apply _) 2 (by decide) r q)

/-- Plane `3` is the fourth weight matrix. -/
theorem weights3_apply (r q : Fin 1024) :
    (Gen.V (F := Ideal) m c main_v24 : S4x1024x1024.Idx → EReal) (ix3 (3 : Fin 4) r q)
      = (m ((c : Thread nD τ).loc main_arg7) : S1024x1024.Idx → EReal) (ix2 r q) := by
  rw [weights_chain]
  exact scatterW_hit _ _ _ 3#32 (idx1_apply _) 3 (by decide) r q

/-- Row `(0, 0, ·)` of the stack of biases is the first bias. -/
theorem biases0_apply (q : Fin 1024) :
    (Gen.V (F := Ideal) m c main_v28 : S4x1x1024.Idx → EReal) (ix3 (0 : Fin 4) (0 : Fin 1) q)
      = (m ((c : Thread nD τ).loc main_arg2) : S1024.Idx → EReal) (ix1 q) := by
  rw [biases_chain]
  exact (scatterB_miss _ _ _ 3#32 0#32 (idx2_at0 _) (idx2_at1 _) 0 (by decide) q).trans
    ((scatterB_miss _ _ _ 2#32 0#32 (idx2_at0 _) (idx2_at1 _) 0 (by decide) q).trans
      ((scatterB_miss _ _ _ 1#32 0#32 (idx2_at0 _) (idx2_at1 _) 0 (by decide) q).trans
        (scatterB_hit _ _ _ 0#32 0#32 (idx2_at0 _) (idx2_at1 _) 0 (by decide) (by decide) q)))

/-- Row `(1, 0, ·)` is the second bias. -/
theorem biases1_apply (q : Fin 1024) :
    (Gen.V (F := Ideal) m c main_v28 : S4x1x1024.Idx → EReal) (ix3 (1 : Fin 4) (0 : Fin 1) q)
      = (m ((c : Thread nD τ).loc main_arg4) : S1024.Idx → EReal) (ix1 q) := by
  rw [biases_chain]
  exact (scatterB_miss _ _ _ 3#32 0#32 (idx2_at0 _) (idx2_at1 _) 1 (by decide) q).trans
    ((scatterB_miss _ _ _ 2#32 0#32 (idx2_at0 _) (idx2_at1 _) 1 (by decide) q).trans
      (scatterB_hit _ _ _ 1#32 0#32 (idx2_at0 _) (idx2_at1 _) 1 (by decide) (by decide) q))

/-- Row `(2, 0, ·)` is the third bias. -/
theorem biases2_apply (q : Fin 1024) :
    (Gen.V (F := Ideal) m c main_v28 : S4x1x1024.Idx → EReal) (ix3 (2 : Fin 4) (0 : Fin 1) q)
      = (m ((c : Thread nD τ).loc main_arg6) : S1024.Idx → EReal) (ix1 q) := by
  rw [biases_chain]
  exact (scatterB_miss _ _ _ 3#32 0#32 (idx2_at0 _) (idx2_at1 _) 2 (by decide) q).trans
    (scatterB_hit _ _ _ 2#32 0#32 (idx2_at0 _) (idx2_at1 _) 2 (by decide) (by decide) q)

/-- Row `(3, 0, ·)` is the fourth bias. -/
theorem biases3_apply (q : Fin 1024) :
    (Gen.V (F := Ideal) m c main_v28 : S4x1x1024.Idx → EReal) (ix3 (3 : Fin 4) (0 : Fin 1) q)
      = (m ((c : Thread nD τ).loc main_arg8) : S1024.Idx → EReal) (ix1 q) := by
  rw [biases_chain]
  exact scatterB_hit _ _ _ 3#32 0#32 (idx2_at0 _) (idx2_at1 _) 3 (by decide) (by decide) q

end Cert.RefArrays
-- ==== Proof.RefValue.lean ====
/-
  The reference program's result as the network on its nine arguments.

  The input matrix the region finds is the first argument read as 4096 rows; plane `l` of the weight stack is weight
  matrix `l` and row `l` of the bias stack is bias `l`.  So the output matrix is the network on the rows of the first
  argument with the four weight matrices and biases, and the program's result is `Cert.Spec.mlp` of the arguments;
  the arguments end as they were.
-/
import proofs.«158575_g2000405746462539_pallasbulk_774_7_alg».proof.Proof.RefFinal
import proofs.«158575_g2000405746462539_pallasbulk_774_7_alg».proof.Proof.RefArrays

set_option maxRecDepth 16384

noncomputable section

namespace Cert.ReferenceIdeal.RefValue

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen Cert.ReferenceIdeal.Body Cert.ReferenceIdeal.Layer

variable (m : (ℓ : Loc nD τ sig) → Buf (Elt Ideal) ℓ) (ρ : Dev nD → PrngReg)

/-- The contents the region finds depend on the buffer's name only. -/
theorem V_congr (c : Dev nD) {b b' : Ref sig .tc} (h : b = b') : HEq (V m c b) (V m c b') := by subst h; rfl

/-- The three input windows' arrays are the buffers of the rows, the weight stack and the bias stack. -/
theorem V_rows (c : Dev nD) : (V m c (Pipeline.arrRef spec0 0) : S4096x1024.Idx → EReal) = (V m c main_v2 : S4096x1024.Idx → EReal) :=
  eq_of_heq (V_congr m c (b := Pipeline.arrRef spec0 0) (b' := main_v2) rfl)
theorem V_weights (c : Dev nD) : (V m c (Pipeline.arrRef spec0 1) : S4x1024x1024.Idx → EReal) = (V m c main_v24 : S4x1024x1024.Idx → EReal) :=
  eq_of_heq (V_congr m c (b := Pipeline.arrRef spec0 1) (b' := main_v24) rfl)
theorem V_biases (c : Dev nD) : (V m c (Pipeline.arrRef spec0 2) : S4x1x1024.Idx → EReal) = (V m c main_v28 : S4x1x1024.Idx → EReal) :=
  eq_of_heq (V_congr m c (b := Pipeline.arrRef spec0 2) (b' := main_v28) rfl)

/-- The input matrix is the first argument read as 4096 rows. -/
theorem X_eq (c : Dev nD) :
    X m c = shapeCast S4096x1024 (m ((c.tc : Thread nD τ).loc main_arg0) : S32x128x1024.Idx → EReal) Facts₀.shapeCasts_S32x128x1024_S4096x1024 := by
  unfold X
  exact (V_rows m c).trans (Cert.RefArrays.rows_eq m c)

/-- Plane `l` of the weight stack is weight matrix `l`. -/
theorem W0_eq (c : Dev nD) : Wst m c 0 = ((m ((c.tc : Thread nD τ).loc main_arg1)) : S1024x1024.Idx → EReal) := by
  funext j
  obtain ⟨r, q, rfl⟩ : ∃ (r q : Fin 1024), j = ix2 r q := ⟨j 0, j 1, eq_ix2 j⟩
  unfold Wst Wall
  exact (congrFun (V_weights m c) (ix3 (0 : Fin 4) r q)).trans (Cert.RefArrays.weights0_apply m c r q)
theorem W1_eq (c : Dev nD) : Wst m c 1 = ((m ((c.tc : Thread nD τ).loc main_arg3)) : S1024x1024.Idx → EReal) := by
  funext j
  obtain ⟨r, q, rfl⟩ : ∃ (r q : Fin 1024), j = ix2 r q := ⟨j 0, j 1, eq_ix2 j⟩
  unfold Wst Wall
  exact (congrFun (V_weights m c) (ix3 (1 : Fin 4) r q)).trans (Cert.RefArrays.weights1_apply m c r q)
theorem W2_eq (c : Dev nD) : Wst m c 2 = ((m ((c.tc : Thread nD τ).loc main_arg5)) : S1024x1024.Idx → EReal) := by
  funext j
  obtain ⟨r, q, rfl⟩ : ∃ (r q : Fin 1024), j = ix2 r q := ⟨j 0, j 1, eq_ix2 j⟩
  unfold Wst Wall
  exact (congrFun (V_weights m c) (ix3 (2 : Fin 4) r q)).trans (Cert.RefArrays.weights2_apply m c r q)
theorem W3_eq (c : Dev nD) : Wst m c 3 = ((m ((c.tc : Thread nD τ).loc main_arg7)) : S1024x1024.Idx → EReal) := by
  funext j
  obtain ⟨r, q, rfl⟩ : ∃ (r q : Fin 1024), j = ix2 r q := ⟨j 0, j 1, eq_ix2 j⟩
  unfold Wst Wall
  exact (congrFun (V_weights m c) (ix3 (3 : Fin 4) r q)).trans (Cert.RefArrays.weights3_apply m c r q)

/-- Row `l` of the bias stack is bias `l`. -/
theorem B0_eq (c : Dev nD) : Bst m c 0 = ((m ((c.tc : Thread nD τ).loc main_arg2)) : S1024.Idx → EReal) := by
  funext j
  obtain ⟨q, rfl⟩ : ∃ (q : Fin 1024), j = ix1 q := ⟨j 0, eq_ix1 j⟩
  unfold Bst Ball
  exact (congrFun (V_biases m c) (ix3 (0 : Fin 4) (0 : Fin 1) q)).trans (Cert.RefArrays.biases0_apply m c q)
theorem B1_eq (c : Dev nD) : Bst m c 1 = ((m ((c.tc : Thread nD τ).loc main_arg4)) : S1024.Idx → EReal) := by
  funext j
  obtain ⟨q, rfl⟩ : ∃ (q : Fin 1024), j = ix1 q := ⟨j 0, eq_ix1 j⟩
  unfold Bst Ball
  exact (congrFun (V_biases m c) (ix3 (1 : Fin 4) (0 : Fin 1) q)).trans (Cert.RefArrays.biases1_apply m c q)
theorem B2_eq (c : Dev nD) : Bst m c 2 = ((m ((c.tc : Thread nD τ).loc main_arg6)) : S1024.Idx → EReal) := by
  funext j
  obtain ⟨q, rfl⟩ : ∃ (q : Fin 1024), j = ix1 q := ⟨j 0, eq_ix1 j⟩
  unfold Bst Ball
  exact (congrFun (V_biases m c) (ix3 (2 : Fin 4) (0 : Fin 1) q)).trans (Cert.RefArrays.biases2_apply m c q)
theorem B3_eq (c : Dev nD) : Bst m c 3 = ((m ((c.tc : Thread nD τ).loc main_arg8)) : S1024.Idx → EReal) := by
  funext j
  obtain ⟨q, rfl⟩ : ∃ (q : Fin 1024), j = ix1 q := ⟨j 0, eq_ix1 j⟩
  unfold Bst Ball
  exact (congrFun (V_biases m c) (ix3 (3 : Fin 4) (0 : Fin 1) q)).trans (Cert.RefArrays.biases3_apply m c q)

/-- The program's result is the network on the nine arguments. -/
theorem result_eq (c : Dev nD) :
    Pipeline.afterTail₀ cfgs (dats m) 0 (V0 m) [hostOps1] c main_v30
      = Cert.Spec.mlp Facts₀.shapeCasts_S32x128x1024_S4096x1024 Facts₀.shapeCasts_S4096x1024_S32x128x1024
          (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) := by
  rw [tail_eq]
  unfold outRows
  rw [X_eq, W0_eq, B0_eq, W1_eq, B1_eq, W2_eq, B2_eq, W3_eq, B3_eq]
  rfl

/-- The run of the reference program: from any memory, every execution ends with the result array at the network on
    the arguments and the nine arguments as they were. -/
theorem run :
    θ_run (Cert.ReferenceIdeal.defs (F := Ideal)) (onTc (τ := τ) (Cert.ReferenceIdeal.main (F := Ideal))) ⟨m, fun _ => 0, ρ⟩
      (fun r => ∀ c : Dev nD,
      r.2.mem ((c.tc : Thread nD τ).loc main_v30)
        = Cert.Spec.mlp Facts₀.shapeCasts_S32x128x1024_S4096x1024 Facts₀.shapeCasts_S4096x1024_S32x128x1024
            (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v30 (Pipeline.mem_restRefs_of main_v30 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.ReferenceIdeal.RefValue

end
-- ==== Proof.lean ====
/-
  A four-layer dense network with rectifiers, 4096 rows of 1024 features, computed two ways.

  The kernel program reads the input as 4096 rows and treats them 1024 at a time in one region of four points, all
  four layers inside one point, its matrix products on operands passed through a narrower float format.  The
  reference program treats the rows 256 at a time over a grid of 16 row blocks × 4 layers, one layer per point, the
  activation carried from point to point in a scratch buffer, the weights and biases stacked by the lines before the
  region.  On the extended reals a change of float format is the identity, a matrix product into a zero accumulator is
  the plain sum ∑ k, h k * w (k, q), and so both programs compute, at every row, the same four nested layers
  q ↦ max (∑ k, h k * w (k, q) + b q) 0 of that row (`Cert.Spec.mlp`).  The two results are the same function of the
  arguments term by term: no law beyond that is used, so the finiteness of the inputs is never opened.

  The kernel's frame at both instances is the class-A frame of its one region.  The reference's frame is proved over
  its body's three cases (first layer, middle layer, last layer) with the scratch's contents carried by the region's
  invariant (`Cert.ReferenceIdeal.Body`).  The idealization rewrote nothing, so the preservation claim is empty.
-/
import proofs.«158575_g2000405746462539_pallasbulk_774_7_alg».proof.Defs
import proofs.«158575_g2000405746462539_pallasbulk_774_7_alg».proof.Proof.Gen.Kernel
import proofs.«158575_g2000405746462539_pallasbulk_774_7_alg».proof.Proof.Gen.Kernel.Frame
import proofs.«158575_g2000405746462539_pallasbulk_774_7_alg».proof.Proof.Gen.KernelIdeal
import proofs.«158575_g2000405746462539_pallasbulk_774_7_alg».proof.Proof.Gen.KernelIdeal.Frame
import proofs.«158575_g2000405746462539_pallasbulk_774_7_alg».proof.Proof.Gen.ReferenceIdeal
import proofs.«158575_g2000405746462539_pallasbulk_774_7_alg».proof.Proof.Gen.Pre_finite_inputs
import proofs.«158575_g2000405746462539_pallasbulk_774_7_alg».proof.Proof.KernelValue
import proofs.«158575_g2000405746462539_pallasbulk_774_7_alg».proof.Proof.RefValue

noncomputable section

namespace Cert.Proof

open Idealize.ShloMosaic Idealize.ShloMosaic.TcCoe Idealize.SL.Sem

/-- The kernel program runs and keeps its arguments, at the word-level instance and on the extended reals. -/
theorem frame_kernel : Cert.frame_Kernel := fun m ρ _ => Cert.Kernel.Gen.frame m ρ
theorem frame_kernelIdeal : Cert.frame_KernelIdeal := fun m ρ _ => Cert.KernelIdeal.Gen.frame m ρ
/-- The reference program runs and keeps its arguments. -/
theorem frame_referenceIdeal : Cert.frame_ReferenceIdeal := fun m ρ _ => Cert.ReferenceIdeal.Body.frame m ρ

/-- Nothing was rewritten in the idealization. -/
theorem preserves : Cert.preserves_Kernel_KernelIdeal := trivial

/-- From memories agreeing on the arguments both programs end with the network on the arguments. -/
theorem algebraic : Cert.algebraic_KernelIdeal_ReferenceIdeal := by
  intro m ρ m' ρ' _ hagree
  refine ⟨_, Cert.KernelSide.run m ρ, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5, a6, a7, a8⟩ := hagree c
  rw [a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
